-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x32x32 : Shape := ⟨4, ![64, 512, 32, 32]⟩
abbrev S32x512 : Shape := ⟨2, ![32, 512]⟩
abbrev S512x32 : Shape := ⟨2, ![512, 32]⟩
abbrev S_ : Shape := ⟨0, ![]⟩

class Facts : Prop where
  bcast_S_S64x512x32x32 : S_.BroadcastsInDim S64x512x32x32 (![] : Fin 0 → Fin S64x512x32x32.rank)
  reducesTo_S64x512x32x32_S_d0_1_2_3 : S64x512x32x32.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S64x512x32x32 .f32) (main_arg1 : FVec F S32x512 .f32) (main_arg2 : FVec F S512x32 .f32) : IVec S_ 1 :=
  let main_v0 : FVec F S64x512x32x32 .f32 := Host.absf main_arg0
  let main_cst : FVec F S_ .f32 := constant S_ .f32 0x7F800000#32
  let main_v1 : FVec F S64x512x32x32 .f32 := broadcastInDim S64x512x32x32 ![] bcast_S_S64x512x32x32 main_cst
  let main_v2 : IVec S64x512x32x32 1 := cmpf .olt main_v0 main_v1
  let main_c : IVec S_ 1 := constantI S_ 1 1#1
  let main_v3 : IVec S_ 1 := (fun x v => Host.reduce IntOp.andi x v reducesTo_S64x512x32x32_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  main_v13
-- ==== Kernel.lean ====
abbrev S64x512x32x32 : Shape := ⟨4, ![64, 512, 32, 32]⟩
abbrev S32x512 : Shape := ⟨2, ![32, 512]⟩
abbrev S512x32 : Shape := ⟨2, ![512, 32]⟩
abbrev S64x32x32x512 : Shape := ⟨4, ![64, 32, 32, 512]⟩
abbrev S64x1024x512 : Shape := ⟨3, ![64, 1024, 512]⟩
abbrev S4x1024x512 : Shape := ⟨3, ![4, 1024, 512]⟩
abbrev S1x1024x512 : Shape := ⟨3, ![1, 1024, 512]⟩
abbrev S1024x512 : Shape := ⟨2, ![1024, 512]⟩
abbrev S512 : Shape := ⟨1, ![512]⟩
abbrev S1x512 : Shape := ⟨2, ![1, 512]⟩
abbrev S4x512 : Shape := ⟨2, ![4, 512]⟩
abbrev S4x32 : Shape := ⟨2, ![4, 32]⟩

abbrev nBuf : Space → Nat
  | .hbm => 9
  | .vmem => 6
  | .smem => 0
  | _ => 0

abbrev bufTy : (tb : Table) → Fin (tcTables nBuf tb) → BufTy
  | .hbm, ⟨0, _⟩ => ⟨S64x512x32x32, .f32⟩
  | .hbm, ⟨1, _⟩ => ⟨S32x512, .f32⟩
  | .hbm, ⟨2, _⟩ => ⟨S512x32, .f32⟩
  | .hbm, ⟨3, _⟩ => ⟨S64x32x32x512, .f32⟩
  | .hbm, ⟨4, _⟩ => ⟨S64x1024x512, .f32⟩
  | .hbm, ⟨5, _⟩ => ⟨S32x512, .f32⟩
  | .hbm, ⟨6, _⟩ => ⟨S64x1024x512, .f32⟩
  | .hbm, ⟨7, _⟩ => ⟨S64x32x32x512, .f32⟩
  | .hbm, ⟨8, _⟩ => ⟨S64x512x32x32, .f32⟩
  | .local _ .vmem, ⟨0, _⟩ => ⟨S4x1024x512, .f32⟩
  | .local _ .vmem, ⟨1, _⟩ => ⟨S4x1024x512, .f32⟩
  | .local _ .vmem, ⟨2, _⟩ => ⟨S32x512, .f32⟩
  | .local _ .vmem, ⟨3, _⟩ => ⟨S32x512, .f32⟩
  | .local _ .vmem, ⟨4, _⟩ => ⟨S4x1024x512, .f32⟩
  | .local _ .vmem, ⟨5, _⟩ => ⟨S4x1024x512, .f32⟩
  | _, _ => ⟨S64x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x512x32x32_S64x32x32x512_0_2_3_1 : S64x512x32x32.Transposes [0, 2, 3, 1] S64x32x32x512
  shapeCasts_S64x32x32x512_S64x1024x512 : S64x32x32x512.ShapeCasts S64x1024x512
  transposes_S512x32_S32x512_1_0 : S512x32.Transposes [1, 0] S32x512
  inb_S4x1024x512_S1x1024x512_0_0_0 : ∀ a, (![0, 0, 0] : Fin 3 → Nat) a + S1x1024x512.size a ≤ S4x1024x512.size a
  h_S1x1024x512 : 0 < S1x1024x512.numel
  shapeCasts_S1x1024x512_S1024x512 : S1x1024x512.ShapeCasts S1024x512
  reduces_S1024x512_S512 : S1024x512.Reduces [0] S512
  shapeCasts_S512_S1x512 : S512.ShapeCasts S1x512
  inb_S4x1024x512_S1x1024x512_1_0_0 : ∀ a, (![1, 0, 0] : Fin 3 → Nat) a + S1x1024x512.size a ≤ S4x1024x512.size a
  inb_S4x1024x512_S1x1024x512_2_0_0 : ∀ a, (![2, 0, 0] : Fin 3 → Nat) a + S1x1024x512.size a ≤ S4x1024x512.size a
  inb_S4x1024x512_S1x1024x512_3_0_0 : ∀ a, (![3, 0, 0] : Fin 3 → Nat) a + S1x1024x512.size a ≤ S4x1024x512.size a
  concatenates_S1x512_S1x512_S1x512_S1x512_S4x512_d0 : Shape.Concatenates [S1x512, S1x512, S1x512, S1x512] S4x512 0
  inb_S32x512_S32x512_0_0 : ∀ a, (![0, 0] : Fin 2 → Nat) a + S32x512.size a ≤ S32x512.size a
  h_S32x512 : 0 < S32x512.numel
  shapeCasts_S32x512_S32x512 : S32x512.ShapeCasts S32x512
  slices_S4x512_o0_0_S1x512 : S4x512.Slices ![0, 0] S1x512
  broadcasts_S1x512_S1024x512 : S1x512.Broadcasts S1024x512
  shapeCasts_S1024x512_S1x1024x512 : S1024x512.ShapeCasts S1x1024x512
  slices_S4x512_o1_0_S1x512 : S4x512.Slices ![1, 0] S1x512
  slices_S4x512_o2_0_S1x512 : S4x512.Slices ![2, 0] S1x512
  slices_S4x512_o3_0_S1x512 : S4x512.Slices ![3, 0] S1x512
  shapeCasts_S64x1024x512_S64x32x32x512 : S64x1024x512.ShapeCasts S64x32x32x512
  transposes_S64x32x32x512_S64x512x32x32_0_3_1_2 : S64x32x32x512.Transposes [0, 3, 1, 2] S64x512x32x32
  dot_S4x512_S32x512_S4x32_1_1_0_0_n_n_wf : DotDims.WF S4x512 S32x512 S4x32 [1] [1] [0] [0] [] []
  dot_S4x32_S32x512_S4x512_1_0_0_1_n_n_wf : DotDims.WF S4x32 S32x512 S4x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x512.size a ≤ S64x1024x512.size a
  hwx0_0 : ∀ i : grid0.Coords, EltTy.bits .f32 = 32 ∨ (Rect.block (s := S64x1024x512) S4x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1024x512.size a ≤ S64x1024x512.size a
  hwx0_3 : ∀ i : grid0.Coords, EltTy.bits .f32 = 32 ∨ (Rect.block (s := S64x1024x512) S4x1024x512.size (cc0_transform_3 i) (hinb0_3 i)).WholeWords (EltTy.packing .f32)

variable [Facts₀]

def dot_S4x512_S32x512_S4x32_1_1_0_0_n_n : DotDims S4x512 S32x512 S4x32 where
  lhsContracting := [1]
  rhsContracting := [1]
  lhsNonContracting := [0]
  rhsNonContracting := [0]
  lhsBatch := []
  rhsBatch := []
  wf := dot_S4x512_S32x512_S4x32_1_1_0_0_n_n_wf
def dot_S4x32_S32x512_S4x512_1_0_0_1_n_n : DotDims S4x32 S32x512 S4x512 where
  lhsContracting := [1]
  rhsContracting := [0]
  lhsNonContracting := [0]
  rhsNonContracting := [1]
  lhsBatch := []
  rhsBatch := []
  wf := dot_S4x32_S32x512_S4x512_1_0_0_1_n_n_wf

abbrev win0_0 : Pipeline.Window sig grid0 :=
  Pipeline.Window.ofSpec (Memref.whole main_v1) S4x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x32x32 : Shape := ⟨4, ![64, 512, 32, 32]⟩
abbrev S32x512 : Shape := ⟨2, ![32, 512]⟩
abbrev S512x32 : Shape := ⟨2, ![512, 32]⟩
abbrev S64x512x1024 : Shape := ⟨3, ![64, 512, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S32x1 : Shape := ⟨2, ![32, 1]⟩

abbrev nBuf : Space → Nat
  | .hbm => 6
  | .vmem => 6
  | .smem => 0
  | _ => 0

abbrev bufTy : (tb : Table) → Fin (tcTables nBuf tb) → BufTy
  | .hbm, ⟨0, _⟩ => ⟨S64x512x32x32, .f32⟩
  | .hbm, ⟨1, _⟩ => ⟨S32x512, .f32⟩
  | .hbm, ⟨2, _⟩ => ⟨S512x32, .f32⟩
  | .hbm, ⟨3, _⟩ => ⟨S64x512x1024, .f32⟩
  | .hbm, ⟨4, _⟩ => ⟨S64x512x1024, .f32⟩
  | .hbm, ⟨5, _⟩ => ⟨S64x512x32x32, .f32⟩
  | .local _ .vmem, ⟨0, _⟩ => ⟨S1x512x1024, .f32⟩
  | .local _ .vmem, ⟨1, _⟩ => ⟨S1x512x1024, .f32⟩
  | .local _ .vmem, ⟨2, _⟩ => ⟨S32x512, .f32⟩
  | .local _ .vmem, ⟨3, _⟩ => ⟨S512x32, .f32⟩
  | .local _ .vmem, ⟨4, _⟩ => ⟨S1x512x1024, .f32⟩
  | .local _ .vmem, ⟨5, _⟩ => ⟨S1x512x1024, .f32⟩
  | _, _ => ⟨S64x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x512x32x32_S64x512x1024 : S64x512x32x32.ShapeCasts S64x512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  inb_S32x512_S32x512_0_0 : ∀ a, (![0, 0] : Fin 2 → Nat) a + S32x512.size a ≤ S32x512.size a
  h_S32x512 : 0 < S32x512.numel
  inb_S512x32_S512x32_0_0 : ∀ a, (![0, 0] : Fin 2 → Nat) a + S512x32.size a ≤ S512x32.size a
  h_S512x32 : 0 < S512x32.numel
  broadcasts_S512x1_S512x1024 : S512x1.Broadcasts S512x1024
  shapeCasts_S512x1024_S1x512x1024 : S512x1024.ShapeCasts S1x512x1024
  shapeCasts_S64x512x1024_S64x512x32x32 : S64x512x1024.ShapeCasts S64x512x32x32
  dot_S32x512_S512x1_S32x1_1_0_0_1_n_n_wf : DotDims.WF S32x512 S512x1 S32x1 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S64x512x1024.size a
  hwx0_3 : ∀ i : grid0.Coords, EltTy.bits .f32 = 32 ∨ (Rect.block (s := S64x512x1024) S1x512x1024.size (cc0_transform_3 i) (hinb0_3 i)).WholeWords (EltTy.packing .f32)

variable [Facts₀]

def dot_S32x512_S512x1_S32x1_1_0_0_1_n_n : DotDims S32x512 S512x1 S32x1 where
  lhsContracting := [1]
  rhsContracting := [0]
  lhsNonContracting := [0]
  rhsNonContracting := [1]
  lhsBatch := []
  rhsBatch := []
  wf := dot_S32x512_S512x1_S32x1_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Spec.lean ====
/-
  Squeeze-and-excitation over an f32[64, 512, 32, 32] array `x` (batch, channel, row, column) with weights `w1 : [32, 512]`
  and `w2 : [512, 32]`, as ONE function of the three arrays over the extended reals, index by index:

    pooled n c  = (Σ_{q < 1024} x (n, c, q / 32, q % 32)) · 2⁻¹⁰             the channel's mean over the 32 × 32 positions
    hidden n r  = act (Σ_{c < 512} pooled n c · w1 (r, c))                   the squeeze, through the erf-polynomial GELU
    gate n c    = sig (Σ_{r < 32} hidden n r · w2 (c, r))                    the excitation, through the sigmoid
    G (n, c, h, w) = x (n, c, h, w) · gate n c

  `act` is the GELU `0.5 · v · (1 + erf (v / √2))` with the Abramowitz–Stegun 7.1.26 rational approximation of erf
  (sign, |·|, one quotient, a degree-five Horner polynomial, one exponential), each step the operation both programs apply
  to one value, the constants their binary f32 values. `sig` is `1 / (1 + e^(0 − g))`; the one operation "logistic" is the
  same function on every extended real (`logistic_eq_sig`: `0 − g = −g`, and the patterns of 0 and 1 denote 0 and 1).
-/
import Idealize.ShloMosaic.PureOps.Ideal.Laws
import Idealize.ShloMosaic.PureOps.IdealRules
import Idealize.ShloMosaic.Lib.ValueIdx

noncomputable section

namespace Cert.SE

open Idealize.ShloMosaic Idealize.ShloMosaic.ValueIdx

/-- The erf-polynomial GELU of one value: `½ v · (1 + s · (1 − t (a₁ + t (a₂ + t (a₃ + t (a₄ + t a₅)))) · e^(−u²)))` with
    `u = |v / √2|`, `s` the sign of `v / √2` and `t = 1 / (1 + p u)`. -/
def act (v : Ideal .f32) : Ideal .f32 :=
  let half : Ideal .f32 := FloatOps.mulf (Scalar.ofBits .f32 0x3F000000#32) v
  let z : Ideal .f32 := FloatOps.mulf v (Scalar.ofBits .f32 0x3F3504F3#32)
  let s : Ideal .f32 := Scalar.select (FloatOps.cmpf .olt z (Scalar.ofBits .f32 0x00000000#32))
    (Scalar.ofBits .f32 0xBF800000#32) (Scalar.ofBits .f32 0x3F800000#32)
  let u : Ideal .f32 := FloatOps.absf z
  let t : Ideal .f32 := FloatOps.divf (Scalar.ofBits .f32 0x3F800000#32)
    (FloatOps.addf (Scalar.ofBits .f32 0x3F800000#32) (FloatOps.mulf (Scalar.ofBits .f32 0x3EA7BA05#32) u))
  let p4 : Ideal .f32 := FloatOps.addf (Scalar.ofBits .f32 0xBFBA00E3#32) (FloatOps.mulf t (Scalar.ofBits .f32 0x3F87DC22#32))
  let p3 : Ideal .f32 := FloatOps.addf (Scalar.ofBits .f32 0x3FB5F0E3#32) (FloatOps.mulf t p4)
  let p2 : Ideal .f32 := FloatOps.addf (Scalar.ofBits .f32 0xBE91A98E#32) (FloatOps.mulf t p3)
  let p1 : Ideal .f32 := FloatOps.addf (Scalar.ofBits .f32 0x3E827906#32) (FloatOps.mulf t p2)
  let e : Ideal .f32 := FloatOps.exp (FloatOps.mulf (FloatOps.subf (Scalar.ofBits .f32 0x00000000#32) u) u)
  let erf : Ideal .f32 := FloatOps.mulf s (FloatOps.subf (Scalar.ofBits .f32 0x3F800000#32) (FloatOps.mulf (FloatOps.mulf t p1) e))
  FloatOps.mulf half (FloatOps.addf (Scalar.ofBits .f32 0x3F800000#32) erf)

/-- The sigmoid of one value, spelt with a quotient and an exponential: `1 / (1 + e^(0 − g))`. -/
def sig (g : Ideal .f32) : Ideal .f32 :=
  FloatOps.divf (Scalar.ofBits .f32 0x3F800000#32)
    (FloatOps.addf (Scalar.ofBits .f32 0x3F800000#32) (FloatOps.exp (FloatOps.subf (Scalar.ofBits .f32 0x00000000#32) g)))

/-- The f32 pattern `0x3F800000` denotes 1. -/
theorem ofBits_one : Ideal.ofBits .f32 0x3F800000#32 = (1 : EReal) := IdealRules.sign_bit.ideal_onePat .f32

/-- The one-operation logistic is the spelt sigmoid on every extended real, the infinities included: the only law used is
    `0 − g = −g`. -/
theorem logistic_eq_sig (g : Ideal .f32) : FloatOps.logistic g = sig g := by
  show Ideal.logistic g = Ideal.div (Ideal.ofBits .f32 0x3F800000#32)
    (Ideal.ofBits .f32 0x3F800000#32 + Ideal.exp (Ideal.ofBits .f32 0x00000000#32 - g))
  rw [ofBits_one, Ideal.ofBits_zero_f32, zero_sub]
  rfl

abbrev SX : Shape := ⟨4, ![64, 512, 32, 32]⟩
abbrev SW1 : Shape := ⟨2, ![32, 512]⟩
abbrev SW2 : Shape := ⟨2, ![512, 32]⟩

/-- Position `q` of the flattened 32 × 32 map is row `q / 32`, column `q % 32`. -/
def rowOf (q : Fin 1024) : Fin 32 := ⟨q.val / 32, by have := q.isLt; omega⟩
def colOf (q : Fin 1024) : Fin 32 := ⟨q.val % 32, by omega⟩

/-- The channel's mean over the map: the sum of its 1024 entries times 2⁻¹⁰. -/
def pooled (x : SX.Idx → EReal) (n : Fin 64) (c : Fin 512) : EReal :=
  (∑ q : Fin 1024, x (ix4 n c (rowOf q) (colOf q))) * Ideal.ofBits .f32 0x3A800000#32

/-- The squeezed activations of batch entry `n`. -/
def hidden (x : SX.Idx → EReal) (w1 : SW1.Idx → EReal) (n : Fin 64) (r : Fin 32) : EReal :=
  act (∑ c : Fin 512, pooled x n c * w1 (ix2 r c))

/-- The gate of channel `c` of batch entry `n`. -/
def gate (x : SX.Idx → EReal) (w1 : SW1.Idx → EReal) (w2 : SW2.Idx → EReal) (n : Fin 64) (c : Fin 512) : EReal :=
  sig (∑ r : Fin 32, hidden x w1 n r * w2 (ix2 c r))

/-- The whole result: every entry scaled by its channel's gate. -/
def G (x : SX.Idx → EReal) (w1 : SW1.Idx → EReal) (w2 : SW2.Idx → EReal) : SX.Idx → EReal :=
  fun i => x i * gate x w1 w2 (i 0) (i 1)

theorem G_apply (x : SX.Idx → EReal) (w1 : SW1.Idx → EReal) (w2 : SW2.Idx → EReal) (n : Fin 64) (c : Fin 512) (h w : Fin 32) :
    G x w1 w2 (ix4 n c h w) = x (ix4 n c h w) * gate x w1 w2 n c := rfl

end Cert.SE

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibDotTransposedRhs.lean ====
/-
  A two-dimensional matrix product whose right operand is contracted on its LAST axis — `M × K` by `N × K`, the product
  `A · Bᵀ`, no batch axis (`DotDims.transposedRhs M K N`, the dimension numbers `<[1], [1], [0], [0]>`) — read at an output
  index over the extended reals: a kernel's `tpu.matmul` into a zero accumulator is the finite sum
  `Σ_{k < K} lhs (r, k) · rhs (c, k)`, with the contraction index a plain `Fin K` and the operand indices built from
  coordinates. A printed record `dot_S…_1_1_0_0_n_n` of these dimension numbers IS `DotDims.transposedRhs M K N` (`rfl`: the
  lists coincide and the well-formedness field is a proposition).
-/
import Idealize.ShloMosaic.PureOps.Ideal.Laws
import Idealize.ShloMosaic.Lib.ValueIdx

namespace Idealize.ShloMosaic.DotTransposedRhs

open Idealize.ShloMosaic.ValueIdx

variable {M K N : Nat}

theorem contr_rank : (DotDims.transposedRhs M K N).contr.rank = 1 := rfl
theorem contr_size : (DotDims.transposedRhs M K N).contr.size ⟨0, by rw [contr_rank]; exact Nat.one_pos⟩ = K := rfl

/-- The left operand's row coordinate is the output's row. -/
theorem lhsIdx_val0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem lhsIdx_val1 (j : (⟨2, ![M, N]⟩ : Shape).Idx) (q : (DotDims.transposedRhs M K N).contr.Idx) :
    ((DotDims.transposedRhs M K N).lhsIdx j q 1).val = (q ⟨0, by rw [contr_rank]; exact Nat.one_pos⟩).val :=
  (DotDims.transposedRhs M K N).lhsIdx_val_of_single (cl := (1 : Fin 2)) rfl j q

/-- The right operand's row coordinate is the output's column. -/
theorem rhsIdx_val0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rhsIdx_val1 (j : (⟨2, ![M, N]⟩ : Shape).Idx) (q : (DotDims.transposedRhs M K N).contr.Idx) :
    ((DotDims.transposedRhs M K N).rhsIdx j q 1).val = (q ⟨0, by rw [contr_rank]; exact Nat.one_pos⟩).val :=
  (DotDims.transposedRhs M K N).rhsIdx_val_of_single (cr := (1 : Fin 2)) rfl j q

/-- The left operand's index at output index `(r, c)` and contraction position `k` is `(r, k)`. -/
theorem lhsIdx_eq (r : Fin M) (c : Fin N) (k : Fin K) :
    (DotDims.transposedRhs M K N).lhsIdx (ix2 r c) ((contrEquiv1 (DotDims.transposedRhs M K N) K contr_rank contr_size).symm k)
      = ix2 r k := by
  have hk := contrEquiv1_symm_val (DotDims.transposedRhs M K N) K contr_rank contr_size k
  funext a
  apply Fin.ext
  match a with
  | ⟨0, _⟩ => exact lhsIdx_val0 (ix2 r c) _
  | ⟨1, _⟩ => exact (lhsIdx_val1 (ix2 r c) _).trans hk

/-- The right operand's index there is `(c, k)`. -/
theorem rhsIdx_eq (r : Fin M) (c : Fin N) (k : Fin K) :
    (DotDims.transposedRhs M K N).rhsIdx (ix2 r c) ((contrEquiv1 (DotDims.transposedRhs M K N) K contr_rank contr_size).symm k)
      = ix2 c k := by
  have hk := contrEquiv1_symm_val (DotDims.transposedRhs M K N) K contr_rank contr_size k
  funext a
  apply Fin.ext
  match a with
  | ⟨0, _⟩ => exact rhsIdx_val0 (ix2 r c) _
  | ⟨1, _⟩ => exact (rhsIdx_val1 (ix2 r c) _).trans hk

/-- A kernel's product `A · Bᵀ` into the zero accumulator, at `(r, c)`: the sum over the contracted coordinate of
    `A (r, k) · B (c, k)`. -/
theorem matmul_apply_ix2 {φ₁ φ₂ : FTy} (prec : Option ContractPrecision) (lhs : FVec Ideal ⟨2, ![M, K]⟩ φ₁)
    (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, lhs (ix2 r k) * rhs (ix2 c k) := by
  rw [Ideal.matmul_constant_zero_apply,
    ← Equiv.sum_comp (contrEquiv1 (DotDims.transposedRhs M K N) K contr_rank contr_size).symm]
  refine Finset.sum_congr rfl fun k _ => ?_
  rw [lhsIdx_eq, rhsIdx_eq]

end Idealize.ShloMosaic.DotTransposedRhs
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.KGate.lean ====
/-
  The gate a grid point computes, read at an index. A point holds four batch entries as slabs `[1, 1024, 512]`
  (position × channel). For slab `b` and channel `c`:
    the column sum    Σ_{p < 1024} slab_b (0, p, c)                                  (a reduction down the 1024 positions),
    its mean          that sum · 2⁻¹⁰                                               (row `b` of the concatenated `[4, 512]`),
    the squeeze       Σ_{c < 512} mean (b, c) · w1 (r, c)                            (a product with the weights' transpose),
    the activation    `act` of it, entry by entry,
    the excitation    Σ_{r < 32} act (b, r) · w2ᵗ (r, c), and the gate `sig` of that.
  Only layout lemmas are used: a unit axis added or dropped, a concatenation of one-row pieces, the two matrix products as
  finite sums; the pointwise operations unfold to the scalar ones of `Cert.SE.act` and `Cert.SE.sig`.
-/
import proofs.«112087_g2000709704230610_pallasbulk_434_17_alg».proof.Proof.Gen.KernelIdeal.Skeleton
import proofs.«112087_g2000709704230610_pallasbulk_434_17_alg».proof.Proof.Spec
import proofs.«112087_g2000709704230610_pallasbulk_434_17_alg».proof.Proof.LibPlainDot
import proofs.«112087_g2000709704230610_pallasbulk_434_17_alg».proof.Proof.LibDotTransposedRhs
import proofs.«112087_g2000709704230610_pallasbulk_434_17_alg».proof.Proof.LibRowColumn
import Idealize.ShloMosaic.Lib.Pipeline.Value
import Idealize.ShloMosaic.Lib.ValueLayout

noncomputable section

namespace Cert.KernelIdeal.KValue

open Idealize.ShloMosaic Idealize.ShloMosaic.ValueIdx Cert.KernelIdeal Cert.KernelIdeal.Gen

/-- The sum down the positions of one slab's channel `c`, kept as a one-row matrix: at `(u, c)` it is
    `Σ_p slab (0, p, c)`. -/
theorem slabRow_apply (v : FVec Ideal S1x1024x512 .f32) (h1 : S1x1024x512.ShapeCasts S1024x512)
    (h2 : S1024x512.Reduces [0] S512) (hφ : FKind.Formats .f32) (hacc : (0x00000000#32 : BitVec 32) = FKind.add.neutral .f32 hφ)
    (h3 : S512.ShapeCasts S1x512) (u : Fin 1) (c : Fin 512) :
    shapeCast S1x512 (multiReduction .add [0] S512 (shapeCast S1024x512 v h1) 0x00000000#32 h2 hφ hacc) h3 (ix2 u c)
      = ∑ p : Fin 1024, v (ix3 (0 : Fin 1) p c) :=
  (shapeCast_a_1a_apply _ h3 u c).trans
    ((Idealize.ShloMosaic.RowColumn.multiReduction_add_rows (shapeCast S1024x512 v h1) 0x00000000#32 h2 hφ hacc c).trans
      (Finset.sum_congr rfl fun p _ => shapeCast_1ab_ab_apply v h1 p c))

/-- Four one-row matrices stacked: row `b` of the stack is piece `b`'s one row. -/
theorem stack4_apply {α : Type} (f : Fin 4 → (S1x512.Idx → α))
    (h : Shape.Concatenates [S1x512, S1x512, S1x512, S1x512] S4x512 0) (b : Fin 4) (c : Fin 512) :
    concatenate S4x512 0 [⟨S1x512, f 0⟩, ⟨S1x512, f 1⟩, ⟨S1x512, f 2⟩, ⟨S1x512, f 3⟩] h (ix2 b c) = f b (ix2 (0 : Fin 1) c) := by
  have hi : ∀ b' : Fin S1x512.rank, b'.cast (rfl : S1x512.rank = S4x512.rank) ≠ (0 : Fin S4x512.rank) →
      ((ix2 (0 : Fin 1) c : S1x512.Idx) b').val = ((ix2 b c : S4x512.Idx) (b'.cast rfl)).val := fun b' hb' => by
    match b' with
    | ⟨0, _⟩ => exact absurd rfl hb'
    | ⟨1, _⟩ => rfl
  match b with
  | ⟨0, _⟩ => exact concatenate_apply_piece (0 : Fin S4x512.rank) [⟨S1x512, f 0⟩, ⟨S1x512, f 1⟩, ⟨S1x512, f 2⟩, ⟨S1x512, f 3⟩] h _ 0 (show 0 < 4 by omega) S1x512 (f 0) rfl rfl 0 rfl _ hi rfl
  | ⟨1, _⟩ => exact concatenate_apply_piece (0 : Fin S4x512.rank) [⟨S1x512, f 0⟩, ⟨S1x512, f 1⟩, ⟨S1x512, f 2⟩, ⟨S1x512, f 3⟩] h _ 1 (show 1 < 4 by omega) S1x512 (f 1) rfl rfl 1 rfl _ hi rfl
  | ⟨2, _⟩ => exact concatenate_apply_piece (0 : Fin S4x512.rank) [⟨S1x512, f 0⟩, ⟨S1x512, f 1⟩, ⟨S1x512, f 2⟩, ⟨S1x512, f 3⟩] h _ 2 (show 2 < 4 by omega) S1x512 (f 2) rfl rfl 2 rfl _ hi rfl
  | ⟨3, _⟩ => exact concatenate_apply_piece (0 : Fin S4x512.rank) [⟨S1x512, f 0⟩, ⟨S1x512, f 1⟩, ⟨S1x512, f 2⟩, ⟨S1x512, f 3⟩] h _ 3 (show 3 < 4 by omega) S1x512 (f 3) rfl rfl 3 rfl _ hi rfl

/-- The squeeze of a point: entry `(b, r)` of the first product is `Σ_c (Σ_p slab_b (0, p, c)) · 2⁻¹⁰ · w1 (r, c)`. -/
theorem squeeze_apply (sl : Fin 4 → FVec Ideal S1x1024x512 .f32) (w1 : FVec Ideal S32x512 .f32) (b : Fin 4) (r : Fin 32) :
    k0_pay5 (sl 0) (sl 1) (sl 2) (sl 3) w1 (ix2 b r)
      = ∑ c : Fin 512, ((∑ p : Fin 1024, sl b (ix3 (0 : Fin 1) p c)) * Ideal.ofBits .f32 0x3A800000#32) * w1 (ix2 r c) := by
  unfold k0_pay5
  refine (Idealize.ShloMosaic.DotTransposedRhs.matmul_apply_ix2 (M := 4) (K := 512) (N := 32) none _ w1 b r).trans ?_
  refine Finset.sum_congr rfl fun c _ => ?_
  refine congrArg (· * w1 (ix2 r c)) ?_
  refine congrArg (· * Ideal.ofBits .f32 0x3A800000#32) ?_
  refine (stack4_apply (fun j => shapeCast S1x512 (multiReduction .add [0] S512 (shapeCast S1024x512 (sl j) shapeCasts_S1x1024x512_S1024x512)
      0x00000000#32 reduces_S1024x512_S512 (.inl rfl) rfl) shapeCasts_S512_S1x512) _ b c).trans ?_
  exact slabRow_apply (sl b) _ _ _ _ _ 0 c

/-- The gate of a point: entry `(b, c)` is `sig (Σ_r act (squeeze (b, r)) · w2ᵗ (r, c))`. -/
theorem gate_apply (sl : Fin 4 → FVec Ideal S1x1024x512 .f32) (w1 w2t : FVec Ideal S32x512 .f32) (b : Fin 4) (c : Fin 512) :
    k0_pay11 (k0_pay6 (sl 0) (sl 1) (sl 2) (sl 3) w1) (k0_pay8 (sl 0) (sl 1) (sl 2) (sl 3) w1) (k0_pay9 (sl 0) (sl 1) (sl 2) (sl 3) w1)
        (k0_pay10 (sl 0) (sl 1) (sl 2) (sl 3) w1) w2t (ix2 b c)
      = Cert.SE.sig (∑ r : Fin 32, Cert.SE.act (k0_pay5 (sl 0) (sl 1) (sl 2) (sl 3) w1 (ix2 b r)) * w2t (ix2 r c)) := by
  unfold k0_pay11
  show Cert.SE.sig _ = _
  refine congrArg Cert.SE.sig ?_
  refine (Idealize.ShloMosaic.PlainDot.matmul_apply_ix2 (M := 4) (K := 32) (N := 512) none _ _ b c).trans ?_
  refine Finset.sum_congr rfl fun r _ => ?_
  refine congrArg₂ (· * ·) ?_ ?_
  · rfl
  · exact congrFun (shapeCast_self w2t _) (ix2 r c)

end Cert.KernelIdeal.KValue

end
-- ==== Proof.KBlock.lean ====
/-
  What one grid point leaves in its output block `[4, 1024, 512]` (four batch entries × position × channel), as ONE function of
  its three input blocks: entry `(b, p, c)` is the input entry `(b, p, c)` times the gate of batch entry `b`, channel `c`, and that
  gate reads only slab `b` of the input block. The body stores the block as four slabs `[1, 1024, 512]`, slab `b` through the
  rectangle at offset `(b, 0, 0)`; each stored slab is the loaded slab times row `b` of the gate matrix, broadcast down the
  positions. The four rectangles tile the block, so the block is the function whose restriction to each rectangle is that slab.
-/
import proofs.«112087_g2000709704230610_pallasbulk_434_17_alg».proof.Proof.Gen.KernelIdeal.Frame
import proofs.«112087_g2000709704230610_pallasbulk_434_17_alg».proof.Proof.KGate

noncomputable section

namespace Cert.KernelIdeal.KValue

open Idealize.ShloMosaic Idealize.ShloMosaic.ValueIdx Cert.KernelIdeal Cert.KernelIdeal.Gen

/-- The gate of batch entry `b` of a block, channel `c`, from the block `x0`, the weights `w1 : [32, 512]` and the transposed
    second weights `w2t : [32, 512]`. -/
def gateOf (x0 : FVec Ideal S4x1024x512 .f32) (w1 w2t : FVec Ideal S32x512 .f32) (b : Fin 4) (c : Fin 512) : EReal :=
  Cert.SE.sig (∑ r : Fin 32, Cert.SE.act (∑ c' : Fin 512,
    ((∑ p : Fin 1024, x0 (ix3 b p c')) * Ideal.ofBits .f32 0x3A800000#32) * w1 (ix2 r c')) * w2t (ix2 r c))

/-- The block a point writes: every entry times its batch entry's and channel's gate. -/
def blockFn (x0 : FVec Ideal S4x1024x512 .f32) (w1 w2t : FVec Ideal S32x512 .f32) : FVec Ideal S4x1024x512 .f32 :=
  fun y => x0 y * gateOf x0 w1 w2t (y 0) (y 2)

/-- The rectangle of slab `o` sends `(u, p, c)` to `(o, p, c)`. -/
theorem slabRect_idx (o : Nat) (ho : o < 4) (inb : ∀ a, (![o, 0, 0] : Fin 3 → Nat) a + S1x1024x512.size a ≤ S4x1024x512.size a)
    (u : Fin 1) (p : Fin 1024) (c : Fin 512) :
    (Rect.unit (s := S4x1024x512) ![o, 0, 0] S1x1024x512.size inb).idx (ix3 u p c) = ix3 (⟨o, ho⟩ : Fin 4) p c := by
  funext a
  apply Fin.ext
  match a with
  | ⟨0, _⟩ => show o + 1 * u.val = o; omega
  | ⟨1, _⟩ => show 0 + 1 * p.val = p.val; omega
  | ⟨2, _⟩ => show 0 + 1 * c.val = c.val; omega

/-- A slab loaded through that rectangle, as a family over the four offsets. -/
def slabs (x0 : FVec Ideal S4x1024x512 .f32) (b : Fin 4) : FVec Ideal S1x1024x512 .f32 := fun y => x0 (ix3 b (y 1) (y 2))

theorem ld_slab (x0 : Vec Ideal S4x1024x512 .f32) (o : Nat) (ho : o < 4)
    (inb : ∀ a, (![o, 0, 0] : Fin 3 → Nat) a + S1x1024x512.size a ≤ S4x1024x512.size a) :
    View.ld (Val := Elt Ideal) (e' := .f32) x0 (Rect.unit (s := S4x1024x512) ![o, 0, 0] S1x1024x512.size inb)
      = (slabs x0 ⟨o, ho⟩ : S1x1024x512.Idx → Elt Ideal .f32) := by
  funext (y : S1x1024x512.Idx)
  refine congrArg x0 (funext fun a => Fin.ext ?_)
  match a with
  | ⟨0, _⟩ => show o + 1 * (y 0).val = o; have : (y 0).val < 1 := (y 0).isLt; omega
  | ⟨1, _⟩ => show 0 + 1 * (y 1).val = (y 1).val; omega
  | ⟨2, _⟩ => show 0 + 1 * (y 2).val = (y 2).val; omega

/-- One stored slab at `(u, p, c)`: the loaded slab's entry `(0, p, c)` times entry `(o, c)` of the gate matrix. -/
theorem storedSlab_apply (V : FVec Ideal S4x512 .f32) (v : FVec Ideal S1x1024x512 .f32) (o : Nat) (ho : o < 4)
    (h1 : S1x1024x512.ShapeCasts S1024x512) (h2 : S4x512.Slices ![o, 0] S1x512) (h3 : S1x512.Broadcasts S1024x512)
    (h4 : S1024x512.ShapeCasts S1x1024x512) (u : Fin 1) (p : Fin 1024) (c : Fin 512) :
    shapeCast S1x1024x512 (mulf (shapeCast S1024x512 v h1) (broadcastTo S1024x512 (extractStridedSlice S1x512 ![o, 0] V h2) h3)) h4
        (ix3 u p c) = v (ix3 (0 : Fin 1) p c) * V (ix2 (⟨o, ho⟩ : Fin 4) c) := by
  refine (shapeCast_ab_1ab_apply _ h4 u p c).trans ?_
  refine congrArg₂ (· * ·) (shapeCast_1ab_ab_apply v h1 p c) ?_
  refine (broadcastTo_apply _ h3 (ix2 p c) (ix2 (0 : Fin 1) c) (fun a => by
    match a with
    | ⟨0, _⟩ => rfl
    | ⟨1, _⟩ => rfl)).trans ?_
  exact extractStridedSlice_apply ![o, 0] V h2 (ix2 (0 : Fin 1) c) (ix2 (⟨o, ho⟩ : Fin 4) c) (fun a => by
    match a with
    | ⟨0, _⟩ => show o = o + 0; omega
    | ⟨1, _⟩ => show c.val = 0 + c.val; omega)

/-- The gate matrix `[4, 512]` a point computes from its four slabs and the two weight blocks. -/
def gateMat (x0 : Vec Ideal S4x1024x512 .f32) (x1 x2 : Vec Ideal S32x512 .f32) : FVec Ideal S4x512 .f32 :=
  k0_pay11 (k0_pay6 (slabs x0 0) (slabs x0 1) (slabs x0 2) (slabs x0 3) x1) (k0_pay8 (slabs x0 0) (slabs x0 1) (slabs x0 2) (slabs x0 3) x1)
    (k0_pay9 (slabs x0 0) (slabs x0 1) (slabs x0 2) (slabs x0 3) x1) (k0_pay10 (slabs x0 0) (slabs x0 1) (slabs x0 2) (slabs x0 3) x1) x2

theorem gateMat_apply (x0 : Vec Ideal S4x1024x512 .f32) (x1 x2 : Vec Ideal S32x512 .f32) (b : Fin 4) (c : Fin 512) :
    gateMat x0 x1 x2 (ix2 b c) = gateOf x0 x1 x2 b c := by
  unfold gateMat gateOf
  refine (gate_apply (slabs x0) x1 x2 b c).trans ?_
  refine congrArg Cert.SE.sig (Finset.sum_congr rfl fun r _ => ?_)
  refine congrArg (fun z => Cert.SE.act z * x2 (ix2 r c)) ?_
  exact squeeze_apply (slabs x0) x1 b r

/-- One stored slab is the block function on its rectangle. -/
theorem piece_eq (x0 : Vec Ideal S4x1024x512 .f32) (x1 x2 : Vec Ideal S32x512 .f32) (o : Nat) (ho : o < 4)
    (inb : ∀ a, (![o, 0, 0] : Fin 3 → Nat) a + S1x1024x512.size a ≤ S4x1024x512.size a)
    (h1 : S1x1024x512.ShapeCasts S1024x512) (h2 : S4x512.Slices ![o, 0] S1x512) (h3 : S1x512.Broadcasts S1024x512)
    (h4 : S1024x512.ShapeCasts S1x1024x512) (x : S1x1024x512.Idx) :
    shapeCast S1x1024x512 (mulf (shapeCast S1024x512 (slabs x0 ⟨o, ho⟩) h1)
        (broadcastTo S1024x512 (extractStridedSlice S1x512 ![o, 0] (gateMat x0 x1 x2) h2) h3)) h4 x
      = blockFn x0 x1 x2 ((Rect.unit (s := S4x1024x512) ![o, 0, 0] S1x1024x512.size inb).idx x) := by
  obtain ⟨u, p, c, rfl⟩ : ∃ (u : Fin 1) (p : Fin 1024) (c : Fin 512), x = ix3 u p c := ⟨x 0, x 1, x 2, eq_ix3 x⟩
  refine Eq.trans ?_ (congrArg (blockFn x0 x1 x2) (slabRect_idx o ho inb u p c).symm)
  refine (storedSlab_apply (gateMat x0 x1 x2) (slabs x0 ⟨o, ho⟩) o ho h1 h2 h3 h4 u p c).trans ?_
  exact congrArg (x0 (ix3 (⟨o, ho⟩ : Fin 4) p c) * ·) (gateMat_apply x0 x1 x2 ⟨o, ho⟩ c)

/-- The block after the body is the block function of the three input blocks. -/
theorem out_eq (x0 : Vec Ideal S4x1024x512 .f32) (x1 x2 : Vec Ideal S32x512 .f32) : out0_3 x0 x1 x2 = blockFn x0 x1 x2 := by
  have hz : (![0, 0] : Fin S32x512.rank → Nat) = fun _ => 0 := by funext a; fin_cases a <;> rfl
  have e0 := ld_slab x0 0 (by omega) inb_S4x1024x512_S1x1024x512_0_0_0
  have e1 := ld_slab x0 1 (by omega) inb_S4x1024x512_S1x1024x512_1_0_0
  have e2 := ld_slab x0 2 (by omega) inb_S4x1024x512_S1x1024x512_2_0_0
  have e3 := ld_slab x0 3 (by omega) inb_S4x1024x512_S1x1024x512_3_0_0
  have e4 : View.ld x1 r0_4 = x1 := View.ld_unit_zero (S := S32x512) hz _ x1
  have e5 : View.ld x2 r0_4 = x2 := View.ld_unit_zero (S := S32x512) hz _ x2
  funext y
  unfold out0_3
  rw [e0, e1, e2, e3, e4, e5]
  refine View.canon_apply_of_pieces (Val := Elt Ideal) (S := S4x1024x512) (e := .f32) (blockFn x0 x1 x2) _ ?_ y (cover0_3 _ _ _ _ y)
  intro pc hpc x
  simp only [List.mem_cons, List.mem_nil_iff, or_false] at hpc
  rcases hpc with rfl | rfl | rfl | rfl
  · unfold k0_pay4; exact piece_eq x0 x1 x2 3 (by omega) inb_S4x1024x512_S1x1024x512_3_0_0 _ _ _ _ x
  · unfold k0_pay3; exact piece_eq x0 x1 x2 2 (by omega) inb_S4x1024x512_S1x1024x512_2_0_0 _ _ _ _ x
  · unfold k0_pay2; exact piece_eq x0 x1 x2 1 (by omega) inb_S4x1024x512_S1x1024x512_1_0_0 _ _ _ _ x
  · unfold k0_pay1 k0_pay12; exact piece_eq x0 x1 x2 0 (by omega) inb_S4x1024x512_S1x1024x512_0_0_0 _ _ _ _ x

end Cert.KernelIdeal.KValue

end
-- ==== Proof.KArray.lean ====
/-
  From the blocks to the array. The region's output array `[64, 1024, 512]` (batch × position × channel) is written in sixteen
  blocks of four batch entries; point `t` reads block `t` of the input array (batch entries `4t … 4t+3`) and both weight arrays
  whole, and writes block `t` of the output. Since the gate of a batch entry reads only that entry's slab, every block written
  is the restriction of ONE function of the whole arrays,
      arrayFn X w1 w2t (n, p, c) = X (n, p, c) · sig (Σ_r act (Σ_c' (Σ_p' X (n, p', c')) · 2⁻¹⁰ · w1 (r, c')) · w2t (r, c)),
  and the sixteen blocks tile the array (entry `n` lies in block `n / 4`), so the array ends holding that function.
-/
import proofs.«112087_g2000709704230610_pallasbulk_434_17_alg».proof.Proof.KBlock

noncomputable section

namespace Cert.KernelIdeal.KValue

open Idealize.ShloMosaic Idealize.ShloMosaic.ValueIdx Idealize.SL.Sem Cert.KernelIdeal Cert.KernelIdeal.Gen
open Idealize.ShloMosaic.Pipeline (Dat)

/-- The output array as one function of the input array and the two weight arrays, index by index. -/
def arrayFn (X : S64x1024x512.Idx → EReal) (w1 w2t : S32x512.Idx → EReal) : S64x1024x512.Idx → EReal :=
  fun i => X i * Cert.SE.sig (∑ r : Fin 32, Cert.SE.act (∑ c' : Fin 512,
    ((∑ p : Fin 1024, X (ix3 (i 0) p c')) * Ideal.ofBits .f32 0x3A800000#32) * w1 (ix2 r c')) * w2t (ix2 r (i 2)))

/-- A block that is four consecutive batch entries of `X`, with the weights whole, gives the block function = the array
    function at the shifted batch coordinate. -/
theorem blockFn_of_rows (X : S64x1024x512.Idx → EReal) (w1 w2t : S32x512.Idx → EReal) (s : Nat) (hs : s < 16)
    (x0 : Vec Ideal S4x1024x512 .f32) (x1 x2 : Vec Ideal S32x512 .f32)
    (h0 : ∀ (b : Fin 4) (p : Fin 1024) (c : Fin 512), x0 (ix3 b p c) = X (ix3 (⟨s * 4 + b.val, by have := b.isLt; omega⟩ : Fin 64) p c))
    (h1 : x1 = w1) (h2 : x2 = w2t) (b : Fin 4) (p : Fin 1024) (c : Fin 512) :
    blockFn x0 x1 x2 (ix3 b p c) = arrayFn X w1 w2t (ix3 (⟨s * 4 + b.val, by have := b.isLt; omega⟩ : Fin 64) p c) := by
  subst h1 h2
  show x0 (ix3 b p c) * gateOf x0 x1 x2 b c = X (ix3 _ p c) * Cert.SE.sig _
  unfold gateOf
  simp only [h0]

variable (m : (ℓ : Loc nD τ sig) → Buf (Elt Ideal) ℓ)

/-- The printed index maps over the grid: the input and output blocks sit at batch block `t`, the weights at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem point_lt (t : Fin cfg0.N) : t.val < 16 := by
  have h : t.val < grid0.N := t.isLt
  rwa [N_0] at h

/-- Block `t` of the input array holds batch entries `4t … 4t + 3`. -/
theorem inBlock_apply (c : Dev nD) (t : Fin cfg0.N) (b : Fin 4) (p : Fin 1024) (q : Fin 512) :
    iblk m c 0 t (ix3 b p q)
      = (V m c main_v1 : S64x1024x512.Idx → EReal) (ix3 (⟨t.val * 4 + b.val, by have := point_lt t; have := b.isLt; omega⟩ : Fin 64) p q) := by
  obtain ⟨e0, e1, e2, -⟩ := idx_facts t
  show V m c main_v1 (((cfg0.win 0).blk t).view.emb (ix3 b p q)) = _
  refine congrArg (V m c main_v1) (funext fun a => Fin.ext ?_)
  match a with
  | ⟨0, _⟩ => show win0_0.index t (0 : Fin 3) * 4 + 1 * b.val = t.val * 4 + b.val; omega
  | ⟨1, _⟩ => show win0_0.index t (1 : Fin 3) * 1024 + 1 * p.val = p.val; omega
  | ⟨2, _⟩ => show win0_0.index t (2 : Fin 3) * 512 + 1 * q.val = q.val; omega

/-- The first weights' block is the whole array at every point. -/
theorem w1Block_eq (c : Dev nD) (t : Fin cfg0.N) : iblk m c 1 t = (V m c main_arg1 : S32x512.Idx → EReal) := by
  obtain ⟨-, -, -, e3, e4, -⟩ := idx_facts t
  funext (y : S32x512.Idx)
  show V m c main_arg1 (((cfg0.win 1).blk t).view.emb y) = V m c main_arg1 y
  refine congrArg (V m c main_arg1) (funext fun a => Fin.ext ?_)
  match a with
  | ⟨0, _⟩ => show win0_1.index t (0 : Fin 2) * 32 + 1 * (y 0).val = (y 0).val; omega
  | ⟨1, _⟩ => show win0_1.index t (1 : Fin 2) * 512 + 1 * (y 1).val = (y 1).val; omega

/-- So is the transposed second weights' block. -/
theorem w2Block_eq (c : Dev nD) (t : Fin cfg0.N) : iblk m c 2 t = (V m c main_v2 : S32x512.Idx → EReal) := by
  obtain ⟨-, -, -, -, -, e5, e6, -⟩ := idx_facts t
  funext (y : S32x512.Idx)
  show V m c main_v2 (((cfg0.win 2).blk t).view.emb y) = V m c main_v2 y
  refine congrArg (V m c main_v2) (funext fun a => Fin.ext ?_)
  match a with
  | ⟨0, _⟩ => show win0_2.index t (0 : Fin 2) * 32 + 1 * (y 0).val = (y 0).val; omega
  | ⟨1, _⟩ => show win0_2.index t (1 : Fin 2) * 512 + 1 * (y 1).val = (y 1).val; omega

/-- Entry `(b, p, q)` of output block `t` is entry `(4t + b, p, q)` of the output array. -/
theorem outBlock_emb (t : Fin cfg0.N) (b : Fin 4) (p : Fin 1024) (q : Fin 512) :
    (((cfg0.win 3).blk t).view.emb (ix3 b p q) : S64x1024x512.Idx)
      = ix3 (⟨t.val * 4 + b.val, by have := point_lt t; have := b.isLt; omega⟩ : Fin 64) p q := by
  obtain ⟨-, -, -, -, -, -, -, e7, e8, e9⟩ := idx_facts t
  funext a
  apply Fin.ext
  match a with
  | ⟨0, _⟩ => show win0_3.index t (0 : Fin 3) * 4 + 1 * b.val = t.val * 4 + b.val; omega
  | ⟨1, _⟩ => show win0_3.index t (1 : Fin 3) * 1024 + 1 * p.val = p.val; omega
  | ⟨2, _⟩ => show win0_3.index t (2 : Fin 3) * 512 + 1 * q.val = q.val; omega

/-- WHAT POINT `t` WRITES BACK is block `t` of the array function of the arrays as the region finds them. -/
theorem flushed_eq (c : Dev nD) (t : Fin cfg0.N) :
    (dats m 0 c).flushed 3 t = ((cfg0.win 3).blk t).view.read (Elt Ideal)
      (arrayFn (V m c main_v1) (V m c main_arg1) (V m c main_v2)) := by
  show (cfg0.win 3).cut (grid0.coords t) ((dats m 0 c).after 3 t) = _
  rw [after0_3, out_eq (iblk m c 0 t) (iblk m c 1 t) (iblk m c 2 t)]
  funext j
  obtain ⟨b, p, q, rfl⟩ : ∃ (b : Fin 4) (p : Fin 1024) (q : Fin 512), j = ix3 b p q :=
    ⟨j 0, j 1, j 2, eq_ix3 (n0 := 4) (n1 := 1024) (n2 := 512) j⟩
  show blockFn (iblk m c 0 t) (iblk m c 1 t) (iblk m c 2 t) (ix3 b p q)
    = arrayFn (V m c main_v1) (V m c main_arg1) (V m c main_v2) (((cfg0.win 3).blk t).view.emb (ix3 b p q))
  refine Eq.trans ?_ (congrArg (arrayFn (V m c main_v1) (V m c main_arg1) (V m c main_v2)) (outBlock_emb t b p q).symm)
  exact blockFn_of_rows _ _ _ t.val (point_lt t) (iblk m c 0 t) (iblk m c 1 t) (iblk m c 2 t)
    (inBlock_apply m c t) (w1Block_eq m c t) (w2Block_eq m c t) b p q

/-- An index of the output array is in point `t`'s block iff each coordinate is in the block's range on its axis. -/
theorem mem_outBlock (t : Fin cfg0.N) (i : S64x1024x512.Idx) :
    i ∈ ((cfg0.win 3).blk t).view.set ↔ ∀ a : Fin 3, win0_3.index t a * S4x1024x512.size a ≤ (i a).val
      ∧ (i a).val < win0_3.index t a * S4x1024x512.size a + S4x1024x512.size a := by
  show i ∈ ((View.whole main_v3).slice (win0_3.rect t)).set ↔ _
  rw [View.set_slice_whole, Rect.mem_set_unit]
  exact Iff.rfl

/-- Every entry of the output array lies in the block of the point its batch coordinate names: entry `n` in block `n / 4`. -/
theorem covered (i : S64x1024x512.Idx) : ∃ t : Fin cfg0.N, (cfg0.win 3).flush t = true ∧ i ∈ ((cfg0.win 3).blk t).view.set := by
  have hi0 : (i 0).val < 64 := (i 0).isLt
  have hi1 : (i 1).val < 1024 := (i 1).isLt
  have hi2 : (i 2).val < 512 := (i 2).isLt
  have hN : (i 0).val / 4 < grid0.N := by rw [N_0]; omega
  refine ⟨⟨(i 0).val / 4, hN⟩, flush0_3 _, ?_⟩
  obtain ⟨-, -, -, -, -, -, -, e7, e8, e9⟩ := idx_facts ⟨(i 0).val / 4, hN⟩
  rw [mem_outBlock]
  intro a
  match a with
  | ⟨0, _⟩ =>
    show win0_3.index ⟨(i 0).val / 4, hN⟩ (0 : Fin 3) * 4 ≤ (i 0).val ∧ (i 0).val < win0_3.index ⟨(i 0).val / 4, hN⟩ (0 : Fin 3) * 4 + 4
    rw [e7]; show (i 0).val / 4 * 4 ≤ (i 0).val ∧ (i 0).val < (i 0).val / 4 * 4 + 4; omega
  | ⟨1, _⟩ =>
    show win0_3.index ⟨(i 0).val / 4, hN⟩ (1 : Fin 3) * 1024 ≤ (i 1).val ∧ (i 1).val < win0_3.index ⟨(i 0).val / 4, hN⟩ (1 : Fin 3) * 1024 + 1024
    rw [e8]; omega
  | ⟨2, _⟩ =>
    show win0_3.index ⟨(i 0).val / 4, hN⟩ (2 : Fin 3) * 512 ≤ (i 2).val ∧ (i 2).val < win0_3.index ⟨(i 0).val / 4, hN⟩ (2 : Fin 3) * 512 + 512
    rw [e9]; omega

/-- THE OUTPUT ARRAY after the run: the array function of the arrays as the region finds them. -/
theorem final (c : Dev nD) :
    (dats m 0 c).arrAt 3 cfg0.N = arrayFn (V m c main_v1) (V m c main_arg1) (V m c main_v2) :=
  (dats m 0 c).arrAt_eq_of_cover 3 _ (fun t _ => flushed_eq m c t) covered

end Cert.KernelIdeal.KValue

end
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«112087_g2000709704230610_pallasbulk_434_17_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.KLayout.lean ====
/-
  The layout operations around the kernel's region, read at indices, and the array function carried through them.
  The argument `x : [64, 512, 32, 32]` (batch, channel, row, column) is transposed to `[64, 32, 32, 512]` and flattened to
  `[64, 1024, 512]`: entry `(n, p, c)` is `x (n, c, p / 32, p % 32)`. The second weights `w2 : [512, 32]` are transposed:
  entry `(r, c)` is `w2 (c, r)`. The output `[64, 1024, 512]` is unflattened to `[64, 32, 32, 512]` and transposed back to
  `[64, 512, 32, 32]`: entry `(n, c, h, w)` reads `(n, 32 h + w, c)`. Position `32 h + w` has row `h` and column `w`, the sum
  over the 1024 positions of channel `c'` is the same sum of the same terms, and so the array function of the re-laid arrays,
  re-laid back, is the specification `Cert.SE.G` of the arguments.
-/
import proofs.«112087_g2000709704230610_pallasbulk_434_17_alg».proof.Proof.KArray
import proofs.«112087_g2000709704230610_pallasbulk_434_17_alg».proof.Proof.LibRowReduce

noncomputable section

namespace Cert.KernelIdeal.KValue

open Idealize.ShloMosaic Idealize.ShloMosaic.ValueIdx Cert.KernelIdeal Cert.KernelIdeal.Gen Cert.SE

/-- The channel-last flattened array at `(n, p, c)` is the argument at channel `c`, row `p / 32`, column `p % 32`. -/
theorem channelLast_apply (x : SX.Idx → EReal) (n : Fin 64) (p : Fin 1024) (c : Fin 512) :
    shapeCast S64x1024x512 (transpose S64x32x32x512 [0, 2, 3, 1] x transposes_S64x512x32x32_S64x32x32x512_0_2_3_1)
        shapeCasts_S64x32x32x512_S64x1024x512 (ix3 n p c) = x (ix4 n c (rowOf p) (colOf p)) :=
  (shapeCast_apply _ shapeCasts_S64x32x32x512_S64x1024x512 (ix3 n p c) (ix4 n (rowOf p) (colOf p) c) (by
    rw [Shape.rowMajor_val_four, Shape.rowMajor_val_three]
    show ((n.val * 32 + p.val / 32) * 32 + p.val % 32) * 512 + c.val = (n.val * 1024 + p.val) * 512 + c.val
    omega)).trans
  (transpose_apply [0, 2, 3, 1] x transposes_S64x512x32x32_S64x32x32x512_0_2_3_1 (ix4 n (rowOf p) (colOf p) c)
    (ix4 n c (rowOf p) (colOf p)) (fun b => by
      match b with
      | ⟨0, _⟩ => rfl
      | ⟨1, _⟩ => rfl
      | ⟨2, _⟩ => rfl
      | ⟨3, _⟩ => rfl))

/-- The transposed second weights at `(r, c)` are the weights at `(c, r)`. -/
theorem weightsT_apply (w2 : SW2.Idx → EReal) (r : Fin 32) (c : Fin 512) :
    transpose S32x512 [1, 0] w2 transposes_S512x32_S32x512_1_0 (ix2 r c) = w2 (ix2 c r) :=
  Idealize.ShloMosaic.RowReduce.transpose_10_apply w2 transposes_S512x32_S32x512_1_0 r c

/-- Position `32 h + w` of the flattened map. -/
def posOf (h w : Fin 32) : Fin 1024 := ⟨h.val * 32 + w.val, by have := h.isLt; have := w.isLt; omega⟩

theorem rowOf_posOf (h w : Fin 32) : rowOf (posOf h w) = h :=
  Fin.ext (by show (h.val * 32 + w.val) / 32 = h.val; have := w.isLt; omega)

theorem colOf_posOf (h w : Fin 32) : colOf (posOf h w) = w :=
  Fin.ext (by show (h.val * 32 + w.val) % 32 = w.val; have := w.isLt; omega)

/-- The output re-laid back reads, at `(n, c, h, w)`, entry `(n, 32 h + w, c)` of the channel-last array. -/
theorem channelFirst_apply (g : S64x1024x512.Idx → EReal) (n : Fin 64) (c : Fin 512) (h w : Fin 32) :
    transpose S64x512x32x32 [0, 3, 1, 2] (shapeCast S64x32x32x512 g shapeCasts_S64x1024x512_S64x32x32x512)
        transposes_S64x32x32x512_S64x512x32x32_0_3_1_2 (ix4 n c h w) = g (ix3 n (posOf h w) c) :=
  (transpose_apply [0, 3, 1, 2] _ transposes_S64x32x32x512_S64x512x32x32_0_3_1_2 (ix4 n c h w) (ix4 n h w c) (fun b => by
      match b with
      | ⟨0, _⟩ => rfl
      | ⟨1, _⟩ => rfl
      | ⟨2, _⟩ => rfl
      | ⟨3, _⟩ => rfl)).trans
  (shapeCast_apply g shapeCasts_S64x1024x512_S64x32x32x512 (ix4 n h w c) (ix3 n (posOf h w) c) (by
    rw [Shape.rowMajor_val_three, Shape.rowMajor_val_four]
    show (n.val * 1024 + (h.val * 32 + w.val)) * 512 + c.val = ((n.val * 32 + h.val) * 32 + w.val) * 512 + c.val
    omega))

/-- The array function at an index given by coordinates. -/
theorem arrayFn_apply (X : S64x1024x512.Idx → EReal) (w1 w2t : S32x512.Idx → EReal) (n : Fin 64) (p : Fin 1024) (c : Fin 512) :
    arrayFn X w1 w2t (ix3 n p c) = X (ix3 n p c) * Cert.SE.sig (∑ r : Fin 32, Cert.SE.act (∑ c' : Fin 512,
      ((∑ p' : Fin 1024, X (ix3 n p' c')) * Ideal.ofBits .f32 0x3A800000#32) * w1 (ix2 r c')) * w2t (ix2 r c)) := rfl

/-- THE RESULT: the array function of the re-laid arguments, re-laid back, is the specification. -/
theorem relaid_arrayFn (x : SX.Idx → EReal) (w1 : SW1.Idx → EReal) (w2 : SW2.Idx → EReal) :
    transpose S64x512x32x32 [0, 3, 1, 2] (shapeCast S64x32x32x512
      (arrayFn (shapeCast S64x1024x512 (transpose S64x32x32x512 [0, 2, 3, 1] x transposes_S64x512x32x32_S64x32x32x512_0_2_3_1)
          shapeCasts_S64x32x32x512_S64x1024x512) w1 (transpose S32x512 [1, 0] w2 transposes_S512x32_S32x512_1_0))
      shapeCasts_S64x1024x512_S64x32x32x512) transposes_S64x32x32x512_S64x512x32x32_0_3_1_2 = G x w1 w2 := by
  funext i
  obtain ⟨n, c, h, w, rfl⟩ : ∃ (n : Fin 64) (c : Fin 512) (h w : Fin 32), i = ix4 n c h w := ⟨i 0, i 1, i 2, i 3, eq_ix4 i⟩
  rw [channelFirst_apply, arrayFn_apply, G_apply]
  rw [channelLast_apply x n (posOf h w) c, rowOf_posOf, colOf_posOf]
  unfold Cert.SE.gate Cert.SE.hidden Cert.SE.pooled
  refine congrArg (fun z => x (ix4 n c h w) * z) ?_
  refine congrArg Cert.SE.sig (Finset.sum_congr rfl fun r _ => ?_)
  refine congrArg₂ (fun a b => Cert.SE.act a * b) (Finset.sum_congr rfl fun c' _ => ?_) (weightsT_apply w2 r c)
  exact congrArg (fun s => s * Ideal.ofBits .f32 0x3A800000#32 * w1 (ix2 r c'))
    (Finset.sum_congr rfl fun p' _ => channelLast_apply x n p' c')

end Cert.KernelIdeal.KValue

end
-- ==== Proof.KRun.lean ====
/-
  The whole run of the kernel's program, read. @main re-lays the argument `x` channel-last and flattens its map
  (`[64, 1024, 512]`), transposes the second weights, runs the region — whose output array ends holding the array function
  of those re-laid arrays and the first weights — and re-lays the output back to `[64, 512, 32, 32]`. By `relaid_arrayFn`
  that result is the specification `Cert.SE.G` of the three arguments; the arguments end as launched.
-/
import proofs.«112087_g2000709704230610_pallasbulk_434_17_alg».proof.Proof.KLayout

noncomputable section

namespace Cert.KernelIdeal.KValue

open Cert.KernelIdeal Cert.KernelIdeal.Gen Idealize.ShloMosaic Idealize.ShloMosaic.TcCoe Idealize.SL.Sem
open Idealize.ShloMosaic.ValueIdx Cert.SE

variable (m : (ℓ : Loc nD τ sig) → Buf (Elt Ideal) ℓ) (ρ : Dev nD → PrngReg)

/-- The channel-last flattened array the region finds is the argument re-laid. -/
theorem V_channelLast (c : Dev nD) : (V m c main_v1 : S64x1024x512.Idx → EReal) = (shapeCast S64x1024x512 (transpose S64x32x32x512 [0, 2, 3, 1] (m ((c.tc : Thread nD τ).loc main_arg0)) transposes_S64x512x32x32_S64x32x32x512_0_2_3_1) shapeCasts_S64x32x32x512_S64x1024x512) := by
  show StableHlo.after hostOps0 (fun b => m (c, b)) (Proc.devRef .tc main_v1) = _
  after_results
  rfl

/-- The transposed weights the region finds. -/
theorem V_weightsT (c : Dev nD) : (V m c main_v2 : S32x512.Idx → EReal) = (transpose S32x512 [1, 0] (m ((c.tc : Thread nD τ).loc main_arg2)) transposes_S512x32_S32x512_1_0) := by
  show StableHlo.after hostOps0 (fun b => m (c, b)) (Proc.devRef .tc main_v2) = _
  after_results

/-- The output array after the region, over the arguments as launched. -/
theorem final_args (c : Dev nD) : (dats m 0 c).arrAt 3 cfg0.N = arrayFn (shapeCast S64x1024x512 (transpose S64x32x32x512 [0, 2, 3, 1] (m ((c.tc : Thread nD τ).loc main_arg0)) transposes_S64x512x32x32_S64x32x32x512_0_2_3_1) shapeCasts_S64x32x32x512_S64x1024x512) (m ((c.tc : Thread nD τ).loc main_arg1)) (transpose S32x512 [1, 0] (m ((c.tc : Thread nD τ).loc main_arg2)) transposes_S512x32_S32x512_1_0) := by
  rw [final m c, V_channelLast m c, V_main_arg1 m c, V_weightsT m c]

/-- The result of the lines after the region: the output array unflattened and re-laid channel-first. -/
theorem tail_eq (c : Dev nD) : Pipeline.afterTail₀ cfgs (dats m) 0 (V0 m) [hostOps1] c main_v5
    = (fun g : S64x1024x512.Idx → EReal => transpose S64x512x32x32 [0, 3, 1, 2] (shapeCast S64x32x32x512 g shapeCasts_S64x1024x512_S64x32x32x512) transposes_S64x32x32x512_S64x512x32x32_0_3_1_2) ((dats m 0 c).arrAt 3 cfg0.N) := by
  unfold Pipeline.afterTail₀
  show StableHlo.after hostOps1 _ (Proc.devRef .tc main_v5) = _
  after_results
  exact congrArg (fun g : S64x1024x512.Idx → EReal => transpose S64x512x32x32 [0, 3, 1, 2] (shapeCast S64x32x32x512 g shapeCasts_S64x1024x512_S64x32x32x512) transposes_S64x32x32x512_S64x512x32x32_0_3_1_2)
    (Pipeline.withArrays_arr spec0 launch0.win.arr_inj c _ _ 3)

/-- THE RUN: every weakly fair execution of @main ends with the result array at the specification of the three arguments
    and the arguments as launched. -/
theorem run : θ_run (defs (F := Ideal)) (onTc (τ := τ) (main (F := Ideal))) ⟨m, fun _ => 0, ρ⟩ (fun r => ∀ c : Dev nD,
      r.2.mem ((c.tc : Thread nD τ).loc main_v5) = Cert.SE.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v5 (Pipeline.mem_restRefs_of main_v5 (by decide) (by decide))).trans
        ((tail_eq m c).trans ((congrArg (fun g : S64x1024x512.Idx → EReal => transpose S64x512x32x32 [0, 3, 1, 2] (shapeCast S64x32x32x512 g shapeCasts_S64x1024x512_S64x32x32x512) transposes_S64x32x32x512_S64x512x32x32_0_3_1_2) (final_args m c)).trans (relaid_arrayFn _ _ _))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.RefPayload.lean ====
/-
  The body's arithmetic on one block `x0 : [1, 512, 1024]` with the weights `x1 : [32, 512]`, `x2 : [512, 32]`, read at
  indices given by coordinates over the extended reals:
  • the squeeze product at row `r` is `Σ_c x1 (r, c) · pooledBlk x0 c`, with `pooledBlk x0 c` the sum of the block's
    channel `c` over its 1024 positions times 2⁻¹⁰ (a row sum, kept as a column, scaled);
  • the whole stored block at `(u, c, q)` is `x0 (0, c, q) · gateBlk x0 x1 x2 c`, the gate being the sigmoid of the
    excitation product of the activated squeeze.
-/
import proofs.«112087_g2000709704230610_pallasbulk_434_17_alg».proof.Proof.Gen.ReferenceIdeal.Skeleton
import proofs.«112087_g2000709704230610_pallasbulk_434_17_alg».proof.Proof.Spec
import proofs.«112087_g2000709704230610_pallasbulk_434_17_alg».proof.Proof.LibPlainDot
import proofs.«112087_g2000709704230610_pallasbulk_434_17_alg».proof.Proof.LibColumn
import proofs.«112087_g2000709704230610_pallasbulk_434_17_alg».proof.Proof.LibRowReduce
import Idealize.ShloMosaic.Lib.ValueLayout

noncomputable section

namespace Cert.ReferenceIdeal.RefValue

open Cert.ReferenceIdeal Cert.ReferenceIdeal.Gen Idealize.ShloMosaic Idealize.ShloMosaic.ValueIdx Cert.SE

variable (x0 : Vec Ideal S1x512x1024 .f32) (x1 : Vec Ideal S32x512 .f32) (x2 : Vec Ideal S512x32 .f32)

/-- The mean of the block's channel `c` over its positions. -/
def pooledBlk (c : Fin 512) : EReal := (∑ q : Fin 1024, x0 (ix3 (0 : Fin 1) c q)) * Ideal.ofBits .f32 0x3A800000#32

/-- The activated squeeze of the block at row `r`. -/
def hiddenBlk (r : Fin 32) : EReal := Cert.SE.act (∑ c : Fin 512, x1 (ix2 r c) * pooledBlk x0 c)

/-- The gate of the block's channel `c`. -/
def gateBlk (c : Fin 512) : EReal := Cert.SE.sig (∑ r : Fin 32, x2 (ix2 c r) * hiddenBlk x0 x1 r)

/-- The block as a matrix: entry `(c, q)` is the block's `(0, c, q)`. -/
theorem matrix_apply (c : Fin 512) (q : Fin 1024) : k0_pay2 (F := Ideal) x0 (ix2 c q) = x0 (ix3 (0 : Fin 1) c q) := by
  unfold k0_pay2
  exact RowReduce.shapeCast_1ab_ab_apply x0 _ c q

/-- The row sums of the matrix: channel `c`'s sum over the positions. -/
theorem rowSum_apply (c : Fin 512) :
    multiReduction (F := Ideal) .add [1] S512 (k0_pay2 x0) 0x00000000#32 reduces_S512x1024_S512 (.inl rfl) rfl (ix1 c)
      = ∑ q : Fin 1024, x0 (ix3 (0 : Fin 1) c q) :=
  (RowReduce.multiReduction_add_cols (k0_pay2 (F := Ideal) x0) 0x00000000#32 reduces_S512x1024_S512 (.inl rfl) rfl c).trans
    (Finset.sum_congr rfl fun q _ => matrix_apply x0 c q)

/-- The pooled column: the row sums kept as a column and scaled by 2⁻¹⁰. -/
def pooledCol : FVec Ideal S512x1 .f32 :=
  mulf (shapeCast S512x1 (multiReduction (F := Ideal) .add [1] S512 (k0_pay2 x0) 0x00000000#32 reduces_S512x1024_S512 (.inl rfl) rfl)
    shapeCasts_S512_S512x1) (broadcast S512x1 (Scalar.ofBits (F := Ideal) .f32 0x3A800000#32))

theorem pooledCol_apply (c : Fin 512) (u : Fin 1) : pooledCol x0 (ix2 c u) = pooledBlk x0 c := by
  unfold pooledCol pooledBlk
  show shapeCast S512x1 _ shapeCasts_S512_S512x1 (ix2 c u) * Ideal.ofBits .f32 0x3A800000#32 = _
  exact congrArg (· * Ideal.ofBits .f32 0x3A800000#32)
    ((Column.shapeCast_a_a1_apply _ shapeCasts_S512_S512x1 c u).trans (rowSum_apply x0 c))

/-- The squeeze product at row `r`: the weight's row against the pooled column. -/
theorem squeeze_apply (r : Fin 32) (u : Fin 1) :
    k0_pay3 (F := Ideal) x0 x1 (ix2 r u) = ∑ c : Fin 512, x1 (ix2 r c) * pooledBlk x0 c := by
  unfold k0_pay3
  show FloatOps.matmul (DotDims.plain 32 512 1) none x1 (pooledCol x0) (constant ⟨2, ![32, 1]⟩ .f32 0x00000000#32) (ix2 r u) = _
  refine (PlainDot.matmul_apply_ix2 none x1 (pooledCol x0) r u).trans ?_
  exact Finset.sum_congr rfl fun c _ => congrArg (x1 (ix2 r c) * ·) (pooledCol_apply x0 c u)

end Cert.ReferenceIdeal.RefValue

end
-- ==== Proof.RefStored.lean ====
/-
  What the body stores, at an index `(u, c, q)` of the block: the block's entry `(0, c, q)` times the gate of channel `c`.
  The erf-polynomial GELU between the two products is pointwise, operation for operation the specification's `act`; the
  excitation product at row `c` is `Σ_r x2 (c, r) · hiddenBlk r`; the one-operation logistic is the spelt sigmoid; the gate
  column is broadcast along the positions, multiplied into the matrix, and the product cast back to the block's shape.
-/
import proofs.«112087_g2000709704230610_pallasbulk_434_17_alg».proof.Proof.RefPayload

noncomputable section

namespace Cert.ReferenceIdeal.RefValue

open Cert.ReferenceIdeal Cert.ReferenceIdeal.Gen Idealize.ShloMosaic Idealize.ShloMosaic.ValueIdx

variable (x0 : Vec Ideal S1x512x1024 .f32) (x1 : Vec Ideal S32x512 .f32) (x2 : Vec Ideal S512x32 .f32)

/-- The activated squeeze as a column. -/
def hiddenCol : FVec Ideal S32x1 .f32 := fun i => Cert.SE.act (k0_pay3 (F := Ideal) x0 x1 i)

theorem hiddenCol_apply (r : Fin 32) (u : Fin 1) : hiddenCol x0 x1 (ix2 r u) = hiddenBlk x0 x1 r :=
  congrArg Cert.SE.act (squeeze_apply x0 x1 r u)

/-- The excitation product as a column. -/
def exciteCol : FVec Ideal S512x1 .f32 :=
  matmul (φ₁ := .f32) (φ₂ := .f32) dot_S512x32_S32x1_S512x1_1_0_0_1_n_n none x2 (hiddenCol x0 x1) (constant S512x1 .f32 0x00000000#32)

/-- At row `c`: the weight's row against the activated squeeze. -/
theorem exciteCol_apply (c : Fin 512) (u : Fin 1) :
    exciteCol x0 x1 x2 (ix2 c u) = ∑ r : Fin 32, x2 (ix2 c r) * hiddenBlk x0 x1 r := by
  unfold exciteCol
  show FloatOps.matmul (φ₁ := .f32) (φ₂ := .f32) (DotDims.plain 512 32 1) none x2 (hiddenCol x0 x1) (constant ⟨2, ![512, 1]⟩ .f32 0x00000000#32) (ix2 c u) = _
  refine (PlainDot.matmul_apply_ix2 none x2 (hiddenCol x0 x1) c u).trans ?_
  exact Finset.sum_congr rfl fun r _ => congrArg (x2 (ix2 c r) * ·) (hiddenCol_apply x0 x1 r u)

/-- The stored block is the matrix times the broadcast gate column, cast back to the block's shape: every operation
    between the two products is pointwise and is the specification's, in its order, with its constants. -/
theorem stored_eq :
    k0_pay1 (F := Ideal) (k0_pay2 x0) x2 (k0_pay4 x0 x1) (k0_pay6 x0 x1) (k0_pay7 x0 x1) (k0_pay8 x0 x1) (k0_pay9 x0 x1)
        (Scalar.ofBits .f32 0x3E827906#32)
      = shapeCast S1x512x1024 (mulf (k0_pay2 x0) (broadcastTo S512x1024 (logistic (exciteCol x0 x1 x2)) broadcasts_S512x1_S512x1024))
          shapeCasts_S512x1024_S1x512x1024 := rfl

/-- The stored block at `(u, c, q)`. -/
theorem stored_apply (u : Fin 1) (c : Fin 512) (q : Fin 1024) :
    k0_pay1 (F := Ideal) (k0_pay2 x0) x2 (k0_pay4 x0 x1) (k0_pay6 x0 x1) (k0_pay7 x0 x1) (k0_pay8 x0 x1) (k0_pay9 x0 x1)
        (Scalar.ofBits .f32 0x3E827906#32) (ix3 u c q)
      = x0 (ix3 (0 : Fin 1) c q) * gateBlk x0 x1 x2 c := by
  refine (congrFun (stored_eq x0 x1 x2) (ix3 u c q)).trans ?_
  refine (shapeCast_ab_1ab_apply _ shapeCasts_S512x1024_S1x512x1024 u c q).trans ?_
  show k0_pay2 (F := Ideal) x0 (ix2 c q) * broadcastTo S512x1024 (logistic (exciteCol x0 x1 x2)) broadcasts_S512x1_S512x1024 (ix2 c q) = _
  refine congrArg₂ (· * ·) (matrix_apply x0 c q) ?_
  refine (Column.broadcastTo_a1_ab_apply _ broadcasts_S512x1_S512x1024 c q).trans ?_
  show FloatOps.logistic (exciteCol x0 x1 x2 (ix2 c (0 : Fin 1))) = _
  refine (Cert.SE.logistic_eq_sig _).trans ?_
  exact congrArg Cert.SE.sig (exciteCol_apply x0 x1 x2 c 0)

end Cert.ReferenceIdeal.RefValue

end
-- ==== Proof.RefFlat.lean ====
/-
  The squeeze-and-excitation result over the FLATTENED array `a : [64, 512, 1024]` (batch, channel, position), with the
  weight on the left of each product, as the program that works on flattened blocks computes it:

    pooledFlat a n c      = (Σ_{q < 1024} a (n, c, q)) · 2⁻¹⁰
    hiddenFlat a w1 n r   = act (Σ_{c < 512} w1 (r, c) · pooledFlat a n c)
    gateFlat a w1 w2 n c  = sig (Σ_{r < 32} w2 (c, r) · hiddenFlat a w1 n r)
    GFlat a w1 w2 (n, c, q) = a (n, c, q) · gateFlat a w1 w2 n c

  When `a (n, c, q) = x (n, c, q / 32, q % 32)` the gate is the four-dimensional specification's: the two sums differ only
  in the order of the two factors of each term, which is commutativity of the product on the extended reals — no
  finiteness is involved.
-/
import proofs.«112087_g2000709704230610_pallasbulk_434_17_alg».proof.Proof.Spec

noncomputable section

namespace Cert.ReferenceIdeal.RefValue

open Idealize.ShloMosaic Idealize.ShloMosaic.ValueIdx Cert.SE

abbrev SFlat : Shape := ⟨3, ![64, 512, 1024]⟩

/-- The channel's mean over the flattened map. -/
def pooledFlat (a : SFlat.Idx → EReal) (n : Fin 64) (c : Fin 512) : EReal :=
  (∑ q : Fin 1024, a (ix3 n c q)) * Ideal.ofBits .f32 0x3A800000#32

/-- The squeezed activations, the weight as the left factor. -/
def hiddenFlat (a : SFlat.Idx → EReal) (w1 : SW1.Idx → EReal) (n : Fin 64) (r : Fin 32) : EReal :=
  act (∑ c : Fin 512, w1 (ix2 r c) * pooledFlat a n c)

/-- The gate, the weight as the left factor. -/
def gateFlat (a : SFlat.Idx → EReal) (w1 : SW1.Idx → EReal) (w2 : SW2.Idx → EReal) (n : Fin 64) (c : Fin 512) : EReal :=
  sig (∑ r : Fin 32, w2 (ix2 c r) * hiddenFlat a w1 n r)

/-- Every entry of the flattened array scaled by its channel's gate. -/
def GFlat (a : SFlat.Idx → EReal) (w1 : SW1.Idx → EReal) (w2 : SW2.Idx → EReal) : SFlat.Idx → EReal :=
  fun i => a i * gateFlat a w1 w2 (i 0) (i 1)

theorem GFlat_apply (a : SFlat.Idx → EReal) (w1 : SW1.Idx → EReal) (w2 : SW2.Idx → EReal) (n : Fin 64) (c : Fin 512)
    (q : Fin 1024) : GFlat a w1 w2 (ix3 n c q) = a (ix3 n c q) * gateFlat a w1 w2 n c := rfl

variable (x : SX.Idx → EReal) (a : SFlat.Idx → EReal) (w1 : SW1.Idx → EReal) (w2 : SW2.Idx → EReal)

/-- If the flattened array reads position `q` at row `q / 32`, column `q % 32`, its pooled value is the specification's. -/
theorem pooledFlat_eq (h : ∀ (n : Fin 64) (c : Fin 512) (q : Fin 1024), a (ix3 n c q) = x (ix4 n c (rowOf q) (colOf q)))
    (n : Fin 64) (c : Fin 512) : pooledFlat a n c = pooled x n c := by
  unfold pooledFlat pooled
  exact congrArg (· * Ideal.ofBits .f32 0x3A800000#32) (Finset.sum_congr rfl fun q _ => h n c q)

/-- … its squeezed activations are the specification's (the factors of each term exchanged), -/
theorem hiddenFlat_eq (h : ∀ (n : Fin 64) (c : Fin 512) (q : Fin 1024), a (ix3 n c q) = x (ix4 n c (rowOf q) (colOf q)))
    (n : Fin 64) (r : Fin 32) : hiddenFlat a w1 n r = Cert.SE.hidden x w1 n r := by
  unfold hiddenFlat Cert.SE.hidden
  exact congrArg act (Finset.sum_congr rfl fun c _ => by rw [pooledFlat_eq x a h n c, mul_comm])

/-- … and so is its gate. -/
theorem gateFlat_eq (h : ∀ (n : Fin 64) (c : Fin 512) (q : Fin 1024), a (ix3 n c q) = x (ix4 n c (rowOf q) (colOf q)))
    (n : Fin 64) (c : Fin 512) : gateFlat a w1 w2 n c = gate x w1 w2 n c := by
  unfold gateFlat gate
  exact congrArg sig (Finset.sum_congr rfl fun r _ => by rw [hiddenFlat_eq x a w1 h n r, mul_comm])

end Cert.ReferenceIdeal.RefValue

end
-- ==== Proof.RefBlock.lean ====
/-
  The body's result on one block as a function of the three blocks it loads, and that result when the block is row `n`
  of a flattened array `a` and the two weights are whole: entry `(u, c, q)` is `GFlat a w1 w2 (n, c, q)`. The one store
  and the three loads go through whole-block rectangles at zero offsets, so the stored block is the store's payload of the
  loaded blocks themselves.
-/
import proofs.«112087_g2000709704230610_pallasbulk_434_17_alg».proof.Proof.Gen.ReferenceIdeal.Frame
import proofs.«112087_g2000709704230610_pallasbulk_434_17_alg».proof.Proof.RefStored
import proofs.«112087_g2000709704230610_pallasbulk_434_17_alg».proof.Proof.RefFlat
import Idealize.ShloMosaic.Lib.Pipeline.Value

noncomputable section

namespace Cert.ReferenceIdeal.RefValue

open Cert.ReferenceIdeal Cert.ReferenceIdeal.Gen Idealize.ShloMosaic Idealize.ShloMosaic.ValueIdx

theorem zeros3 : (![0, 0, 0] : Fin 3 → Nat) = fun _ => 0 := funext fun a => by fin_cases a <;> rfl
theorem zeros2 : (![0, 0] : Fin 2 → Nat) = fun _ => 0 := funext fun a => by fin_cases a <;> rfl

variable (x0 : Vec Ideal S1x512x1024 .f32) (x1 : Vec Ideal S32x512 .f32) (x2 : Vec Ideal S512x32 .f32)

/-- The output block after the body is the store's payload of the three loaded blocks. -/
theorem out_eq : out0_3 (F := Ideal) x0 x1 x2
    = k0_pay1 (F := Ideal) (k0_pay2 x0) x2 (k0_pay4 x0 x1) (k0_pay6 x0 x1) (k0_pay7 x0 x1) (k0_pay8 x0 x1) (k0_pay9 x0 x1)
        (Scalar.ofBits .f32 0x3E827906#32) := by
  unfold out0_3
  rw [View.canon_unit_zero zeros3]
  simp only [View.ld_unit_zero (S := S1x512x1024) zeros3, View.ld_unit_zero (S := S32x512) zeros2,
    View.ld_unit_zero (S := S512x32) zeros2]

/-- At `(u, c, q)`: the block's entry `(0, c, q)` times the gate of channel `c`. -/
theorem out_apply (u : Fin 1) (c : Fin 512) (q : Fin 1024) :
    out0_3 (F := Ideal) x0 x1 x2 (ix3 u c q) = x0 (ix3 (0 : Fin 1) c q) * gateBlk x0 x1 x2 c :=
  (congrFun (out_eq x0 x1 x2) (ix3 u c q)).trans (stored_apply x0 x1 x2 u c q)

variable (a : SFlat.Idx → EReal) (w1 : Cert.SE.SW1.Idx → EReal) (w2 : Cert.SE.SW2.Idx → EReal)

/-- When the block is row `n` of `a`, its pooled values are `a`'s at `n`. -/
theorem pooledBlk_of_row (n : Fin 64) (h0 : ∀ (c : Fin 512) (q : Fin 1024), x0 (ix3 (0 : Fin 1) c q) = a (ix3 n c q))
    (c : Fin 512) : pooledBlk x0 c = pooledFlat a n c := by
  unfold pooledBlk pooledFlat
  exact congrArg (· * Ideal.ofBits .f32 0x3A800000#32) (Finset.sum_congr rfl fun q _ => h0 c q)

/-- … and with the weights whole, its gate is `a`'s at `n`. -/
theorem gateBlk_of_row (n : Fin 64) (h0 : ∀ (c : Fin 512) (q : Fin 1024), x0 (ix3 (0 : Fin 1) c q) = a (ix3 n c q))
    (h1 : x1 = w1) (h2 : x2 = w2) (c : Fin 512) : gateBlk x0 x1 x2 c = gateFlat a w1 w2 n c := by
  subst h1 h2
  unfold gateBlk gateFlat hiddenBlk hiddenFlat
  refine congrArg Cert.SE.sig (Finset.sum_congr rfl fun r _ => congrArg (x2 (ix2 c r) * ·) ?_)
  exact congrArg Cert.SE.act (Finset.sum_congr rfl fun c' _ => congrArg (x1 (ix2 r c') * ·) (pooledBlk_of_row x0 a n h0 c'))

/-- THE BLOCK: at index `j` of the block, the body's result is `GFlat a w1 w2` at the array index `i` with batch
    coordinate `n` and `j`'s channel and position. -/
theorem out_of_row (n : Fin 64) (h0 : ∀ (c : Fin 512) (q : Fin 1024), x0 (ix3 (0 : Fin 1) c q) = a (ix3 n c q))
    (h1 : x1 = w1) (h2 : x2 = w2) (j : S1x512x1024.Idx) (i : SFlat.Idx) (hi0 : (i 0).val = n.val)
    (hi1 : (i 1).val = (j 1).val) (hi2 : (i 2).val = (j 2).val) :
    out0_3 (F := Ideal) x0 x1 x2 j = GFlat a w1 w2 i := by
  obtain ⟨u, ch, q, rfl⟩ : ∃ (u : Fin 1) (ch : Fin 512) (q : Fin 1024), j = ix3 u ch q := ⟨j 0, j 1, j 2, eq_ix3 j⟩
  obtain rfl : i = ix3 n ch q := by
    funext d; apply Fin.ext
    match d with
    | ⟨0, _⟩ => exact hi0
    | ⟨1, _⟩ => exact hi1
    | ⟨2, _⟩ => exact hi2
  rw [out_apply, GFlat_apply, h0, gateBlk_of_row x0 x1 x2 a w1 w2 n h0 h1 h2]

end Cert.ReferenceIdeal.RefValue

end
-- ==== Proof.RefArray.lean ====
/-
  From blocks to the array. Grid point `t` stages row `t` of the flattened array (block index `(t, 0, 0)`, block
  `[1, 512, 1024]`) and both weights whole (block index `(0, 0)`), and writes its result back to row `t` of the output
  array. So what point `t` writes back is row `t` of `GFlat` of the arrays as the region finds them; the 64 rows cover the
  output array (index `(n, c, q)` lies in the block of point `n`), and the output array ends holding `GFlat` of them.
-/
import proofs.«112087_g2000709704230610_pallasbulk_434_17_alg».proof.Proof.RefBlock

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The printed index maps over the grid: the batch window and the output window sit at block `(t, 0, 0)`, the weights'
    windows at block `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The batch window's block at point `t` is row `t` of the flattened array. -/
theorem batchBlk_apply (c : Dev nD) (t : Fin cfg0.N) (y : S1x512x1024.Idx) (k : S64x512x1024.Idx)
    (hk0 : (k 0).val = t.val) (hk1 : (k 1).val = (y 1).val) (hk2 : (k 2).val = (y 2).val) :
    (iblk m c 0 t : Vec Ideal S1x512x1024 .f32) y = (V m c main_v0 : S64x512x1024.Idx → EReal) k := by
  obtain ⟨e0, e1, e2, -⟩ := idx_facts t
  unfold iblk
  rw [View.read_apply]
  show V m c main_v0 _ = V m c main_v0 k
  refine congrArg (V m c main_v0) ?_
  funext d
  apply Fin.ext
  match d with
  | ⟨0, _⟩ => show win0_0.index t (0 : Fin 3) * 1 + 1 * (y 0).val = (k 0).val; have h0 : (y 0).val < 1 := (y 0).isLt; omega
  | ⟨1, _⟩ => show win0_0.index t (1 : Fin 3) * 512 + 1 * (y 1).val = (k 1).val; omega
  | ⟨2, _⟩ => show win0_0.index t (2 : Fin 3) * 1024 + 1 * (y 2).val = (k 2).val; omega

/-- The first weight's window holds the whole weight at every point. -/
theorem w1Blk_eq (c : Dev nD) (t : Fin cfg0.N) :
    (iblk m c 1 t : Vec Ideal S32x512 .f32) = (V m c main_arg1 : S32x512.Idx → EReal) := by
  obtain ⟨-, -, -, e0, e1, -⟩ := idx_facts t
  funext y
  unfold iblk
  rw [View.read_apply]
  show V m c main_arg1 _ = V m c main_arg1 y
  refine congrArg (V m c main_arg1) ?_
  funext d
  apply Fin.ext
  match d with
  | ⟨0, _⟩ => show win0_1.index t (0 : Fin 2) * 32 + 1 * (y 0).val = (y 0).val; omega
  | ⟨1, _⟩ => show win0_1.index t (1 : Fin 2) * 512 + 1 * (y 1).val = (y 1).val; omega

/-- The second weight's window holds the whole weight at every point. -/
theorem w2Blk_eq (c : Dev nD) (t : Fin cfg0.N) :
    (iblk m c 2 t : Vec Ideal S512x32 .f32) = (V m c main_arg2 : S512x32.Idx → EReal) := by
  obtain ⟨-, -, -, -, -, e0, e1, -⟩ := idx_facts t
  funext y
  unfold iblk
  rw [View.read_apply]
  show V m c main_arg2 _ = V m c main_arg2 y
  refine congrArg (V m c main_arg2) ?_
  funext d
  apply Fin.ext
  match d with
  | ⟨0, _⟩ => show win0_2.index t (0 : Fin 2) * 512 + 1 * (y 0).val = (y 0).val; omega
  | ⟨1, _⟩ => show win0_2.index t (1 : Fin 2) * 32 + 1 * (y 1).val = (y 1).val; omega

/-- The batch entry a grid point works on. -/
def rowOfPoint (t : Fin cfg0.N) : Fin 64 := ⟨t.val, lt_of_lt_of_eq t.isLt (N_0 : cfg0.N = 64)⟩

/-- WHAT POINT `t` WRITES BACK is block `t` of `GFlat` of the arrays as the region finds them. -/
theorem flushed_eq (c : Dev nD) (t : Fin cfg0.N) :
    (dats m 0 c).flushed 3 t = ((cfg0.win 3).blk t).view.read (Elt Ideal)
      (GFlat (V m c main_v0) (V m c main_arg1) (V m c main_arg2)) := by
  show (cfg0.win 3).cut (grid0.coords t) ((dats m 0 c).after 3 t) = _
  rw [after0_3]
  obtain ⟨-, -, -, -, -, -, -, e0, e1, e2⟩ := idx_facts t
  funext j
  show out0_3 (F := Ideal) (iblk m c 0 t) (iblk m c 1 t) (iblk m c 2 t) j
    = GFlat (V m c main_v0) (V m c main_arg1) (V m c main_arg2) (((cfg0.win 3).blk t).view.emb j)
  refine out_of_row (iblk m c 0 t) (iblk m c 1 t) (iblk m c 2 t) (V m c main_v0) (V m c main_arg1) (V m c main_arg2)
    (rowOfPoint t) (fun ch q => batchBlk_apply m c t (ix3 (0 : Fin 1) ch q) (ix3 (rowOfPoint t) ch q) rfl rfl rfl)
    (w1Blk_eq m c t) (w2Blk_eq m c t) j (((cfg0.win 3).blk t).view.emb j) ?_ ?_ ?_
  · show win0_3.index t (0 : Fin 3) * 1 + 1 * (j 0).val = t.val
    have h0 : (j 0).val < 1 := (j 0).isLt; omega
  · show win0_3.index t (1 : Fin 3) * 512 + 1 * (j 1).val = (j 1).val
    omega
  · show win0_3.index t (2 : Fin 3) * 1024 + 1 * (j 2).val = (j 2).val
    omega

/-- An index of the output array is in point `t`'s block iff each coordinate is in the block's range on its axis. -/
theorem mem_blk (t : Fin cfg0.N) (i : S64x512x1024.Idx) :
    i ∈ ((cfg0.win 3).blk t).view.set ↔ ∀ d : Fin 3, win0_3.index t d * S1x512x1024.size d ≤ (i d).val
      ∧ (i d).val < win0_3.index t d * S1x512x1024.size d + S1x512x1024.size d := by
  show i ∈ ((View.whole main_v1).slice (win0_3.rect t)).set ↔ _
  rw [View.set_slice_whole, Rect.mem_set_unit]
  exact Iff.rfl

/-- Every index `(n, c, q)` of the output array is in the block of point `n`. -/
theorem cover (i : S64x512x1024.Idx) :
    ∃ t : Fin cfg0.N, (cfg0.win 3).flush t = true ∧ i ∈ ((cfg0.win 3).blk t).view.set := by
  have h0 : (i 0).val < 64 := (i 0).isLt
  have h1 : (i 1).val < 512 := (i 1).isLt
  have h2 : (i 2).val < 1024 := (i 2).isLt
  obtain ⟨t, ht⟩ : ∃ t : Fin cfg0.N, t.val = (i 0).val := ⟨⟨(i 0).val, lt_of_lt_of_eq h0 (N_0 : cfg0.N = 64).symm⟩, rfl⟩
  obtain ⟨-, -, -, -, -, -, -, e0, e1, e2⟩ := idx_facts t
  refine ⟨t, flush0_3 t, ?_⟩
  rw [mem_blk]
  intro d
  match d with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- THE OUTPUT ARRAY after the region: `GFlat` of the arrays as the region finds them. -/
theorem final (c : Dev nD) :
    (dats m 0 c).arrAt 3 cfg0.N = GFlat (V m c main_v0) (V m c main_arg1) (V m c main_arg2) :=
  (dats m 0 c).arrAt_eq_of_cover 3 (GFlat (V m c main_v0) (V m c main_arg1) (V m c main_arg2))
    (fun t _ => flushed_eq m c t) cover

end Cert.ReferenceIdeal.RefValue

end
-- ==== Proof.RefRun.lean ====
/-
  The whole run of the reference program, read. @main flattens the argument `x : [64, 512, 32, 32]` to
  `[64, 512, 1024]` (entry `(n, c, q)` is `x (n, c, q / 32, q % 32)`), runs the region, whose output array ends holding
  `GFlat` of the flattened argument and the two weights, and casts that array back to `[64, 512, 32, 32]` (entry
  `(n, c, h, w)` reads position `32 h + w`). Position `32 h + w` has row `h` and column `w`, and the gate over the flattened
  array is the specification's, so the result is `Cert.SE.G` of the three arguments; the arguments end as launched.
-/
import proofs.«112087_g2000709704230610_pallasbulk_434_17_alg».proof.Proof.RefArray

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.SE

/-- The flattened array at `(n, c, q)` is the argument at row `q / 32`, column `q % 32` of the channel's map. -/
theorem flatten_apply (x : SX.Idx → EReal) (n : Fin 64) (c : Fin 512) (q : Fin 1024) :
    shapeCast S64x512x1024 x shapeCasts_S64x512x32x32_S64x512x1024 (ix3 n c q) = x (ix4 n c (rowOf q) (colOf q)) :=
  shapeCast_apply x shapeCasts_S64x512x32x32_S64x512x1024 (ix3 n c q) (ix4 n c (rowOf q) (colOf q)) (by
    rw [Shape.rowMajor_val_four, Shape.rowMajor_val_three]
    show ((n.val * 512 + c.val) * 32 + q.val / 32) * 32 + q.val % 32 = (n.val * 512 + c.val) * 1024 + q.val
    omega)

/-- Position `32 h + w` of the flattened map. -/
def posOf (h w : Fin 32) : Fin 1024 := ⟨h.val * 32 + w.val, by have := h.isLt; have := w.isLt; omega⟩

theorem rowOf_posOf (h w : Fin 32) : rowOf (posOf h w) = h :=
  Fin.ext (by show (h.val * 32 + w.val) / 32 = h.val; have := w.isLt; omega)

theorem colOf_posOf (h w : Fin 32) : colOf (posOf h w) = w :=
  Fin.ext (by show (h.val * 32 + w.val) % 32 = w.val; have := w.isLt; omega)

/-- A flattened array cast back reads, at `(n, c, h, w)`, position `32 h + w` of channel `c` of batch entry `n`. -/
theorem unflatten_apply (g : SFlat.Idx → EReal) (n : Fin 64) (c : Fin 512) (h w : Fin 32) :
    shapeCast S64x512x32x32 g shapeCasts_S64x512x1024_S64x512x32x32 (ix4 n c h w) = g (ix3 n c (posOf h w)) :=
  shapeCast_apply g shapeCasts_S64x512x1024_S64x512x32x32 (ix4 n c h w) (ix3 n c (posOf h w)) (by
    rw [Shape.rowMajor_val_three, Shape.rowMajor_val_four]
    show (n.val * 512 + c.val) * 1024 + (h.val * 32 + w.val) = ((n.val * 512 + c.val) * 32 + h.val) * 32 + w.val
    omega)

/-- THE RESULT: `GFlat` of the flattened argument, cast back, is the specification. -/
theorem unflatten_GFlat (x : SX.Idx → EReal) (w1 : SW1.Idx → EReal) (w2 : SW2.Idx → EReal) :
    shapeCast S64x512x32x32 (GFlat (shapeCast S64x512x1024 x shapeCasts_S64x512x32x32_S64x512x1024) w1 w2)
      shapeCasts_S64x512x1024_S64x512x32x32 = G x w1 w2 := by
  funext i
  obtain ⟨n, c, h, w, rfl⟩ : ∃ (n : Fin 64) (c : Fin 512) (h w : Fin 32), i = ix4 n c h w := ⟨i 0, i 1, i 2, i 3, eq_ix4 i⟩
  rw [unflatten_apply, GFlat_apply, G_apply, flatten_apply, rowOf_posOf, colOf_posOf,
    gateFlat_eq x _ w1 w2 (flatten_apply x) n c]

variable (m : (ℓ : Loc nD τ sig) → Buf (Elt Ideal) ℓ) (ρ : Dev nD → PrngReg)

/-- The flattened array the region finds is the argument's reshape. -/
theorem V_flat (c : Dev nD) : (V m c main_v0 : S64x512x1024.Idx → EReal)
    = shapeCast S64x512x1024 (m ((c.tc : Thread nD τ).loc main_arg0)) shapeCasts_S64x512x32x32_S64x512x1024 := by
  show StableHlo.after hostOps0 (fun b => m (c, b)) (Proc.devRef .tc main_v0) = _
  after_results
  rfl

/-- The output array after the region, over the arguments as launched. -/
theorem final_args (c : Dev nD) : (dats m 0 c).arrAt 3 cfg0.N
    = GFlat (shapeCast S64x512x1024 (m ((c.tc : Thread nD τ).loc main_arg0)) shapeCasts_S64x512x32x32_S64x512x1024)
        (m ((c.tc : Thread nD τ).loc main_arg1)) (m ((c.tc : Thread nD τ).loc main_arg2)) := by
  rw [final m c, V_flat m c, V_main_arg1 m c, V_main_arg2 m c]

/-- The result of the line after the region: the output array cast back to four dimensions. -/
theorem tail_eq (c : Dev nD) : Pipeline.afterTail₀ cfgs (dats m) 0 (V0 m) [hostOps1] c main_v2
    = shapeCast S64x512x32x32 ((dats m 0 c).arrAt 3 cfg0.N) shapeCasts_S64x512x1024_S64x512x32x32 := by
  unfold Pipeline.afterTail₀
  show StableHlo.after hostOps1 _ (Proc.devRef .tc main_v2) = _
  after_results
  exact congrArg (fun g : S64x512x1024.Idx → EReal => shapeCast S64x512x32x32 g shapeCasts_S64x512x1024_S64x512x32x32)
    (Pipeline.withArrays_arr spec0 launch0.win.arr_inj c _ _ 3)

/-- THE RUN: every weakly fair execution of @main ends with the result array at the specification of the three arguments
    and the arguments as launched. -/
theorem run : θ_run (defs (F := Ideal)) (onTc (τ := τ) (main (F := Ideal))) ⟨m, fun _ => 0, ρ⟩ (fun r => ∀ c : Dev nD,
      r.2.mem ((c.tc : Thread nD τ).loc main_v2) = Cert.SE.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v2 (Pipeline.mem_restRefs_of main_v2 (by decide) (by decide))).trans
        ((tail_eq m c).trans ((congrArg (fun g : S64x512x1024.Idx → EReal =>
          shapeCast S64x512x32x32 g shapeCasts_S64x512x1024_S64x512x32x32) (final_args m c)).trans (unflatten_GFlat _ _ _))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.RefValue

end
-- ==== Proof.lean ====
/-
  Squeeze-and-excitation over `x : f32[64, 512, 32, 32]` with weights `w1 : [32, 512]`, `w2 : [512, 32]`: two programs that
  compute, over the extended reals, the one function `Cert.SE.G` (Proof/Spec.lean)
      G (n, c, h, w) = x (n, c, h, w) · sig (Σ_r act (Σ_c' mean (n, c') · w1 (r, c')) · w2 (c, r)),
  `mean (n, c')` the channel's sum over its 32 × 32 map times 2⁻¹⁰, `act` the erf-polynomial GELU, `sig` the sigmoid.

  The kernel's program works channel-last: it re-lays `x` as `[64, 1024, 512]`, transposes `w2`, and its region handles four
  batch entries per grid point — sums down the 1024 positions, a product against `w1` contracted on its last axis, the GELU,
  a plain product with `w2ᵗ`, the sigmoid spelt `1 / (1 + e^(0 − g))`, and each entry scaled by its batch entry's and
  channel's gate — then re-lays the output back (Proof/KGate, KBlock, KArray, KLayout, KRun).
  The reference's program works channel-first on `[64, 512, 1024]`, one batch entry per grid point — sums along the 1024
  positions kept as a column, `w1` times that column, the same GELU, `w2` times the result, the one-operation logistic, the
  column broadcast along the positions (Proof/RefFlat, RefPayload, RefStored, RefBlock, RefArray, RefRun).
  The two differ by: the order of the two factors in each term of the two products (commutativity of the product of
  extended reals), the sigmoid's spelling (`0 − g = −g`, and the patterns of 0 and 1 denote 0 and 1), and the layout — the sum
  over a channel's positions is the same sum of the same terms in both, position `32 h + w` having row `h` and column `w`.
  No law that fails at the infinities is used, so the inputs' finiteness is never opened.

  Each program's frame (termination, no fault, arguments unchanged) is the generated frame certificate of its class; the
  idealization rewrote nothing, so there is nothing to preserve; the algebraic claim is the two runs side by side, both
  ending with the result array at `G` of arguments that agree.
-/
import proofs.«112087_g2000709704230610_pallasbulk_434_17_alg».proof.Defs
import proofs.«112087_g2000709704230610_pallasbulk_434_17_alg».proof.Proof.Gen.Kernel
import proofs.«112087_g2000709704230610_pallasbulk_434_17_alg».proof.Proof.Gen.Kernel.Skeleton
import proofs.«112087_g2000709704230610_pallasbulk_434_17_alg».proof.Proof.Gen.Kernel.Launch
import proofs.«112087_g2000709704230610_pallasbulk_434_17_alg».proof.Proof.Gen.Kernel.Points
import proofs.«112087_g2000709704230610_pallasbulk_434_17_alg».proof.Proof.Gen.Kernel.Frame
import proofs.«112087_g2000709704230610_pallasbulk_434_17_alg».proof.Proof.Gen.KernelIdeal
import proofs.«112087_g2000709704230610_pallasbulk_434_17_alg».proof.Proof.Gen.KernelIdeal.Skeleton
import proofs.«112087_g2000709704230610_pallasbulk_434_17_alg».proof.Proof.Gen.KernelIdeal.Launch
import proofs.«112087_g2000709704230610_pallasbulk_434_17_alg».proof.Proof.Gen.KernelIdeal.Points
import proofs.«112087_g2000709704230610_pallasbulk_434_17_alg».proof.Proof.Gen.KernelIdeal.Frame
import proofs.«112087_g2000709704230610_pallasbulk_434_17_alg».proof.Proof.Gen.ReferenceIdeal
import proofs.«112087_g2000709704230610_pallasbulk_434_17_alg».proof.Proof.Gen.ReferenceIdeal.Skeleton
import proofs.«112087_g2000709704230610_pallasbulk_434_17_alg».proof.Proof.Gen.ReferenceIdeal.Launch
import proofs.«112087_g2000709704230610_pallasbulk_434_17_alg».proof.Proof.Gen.ReferenceIdeal.Points
import proofs.«112087_g2000709704230610_pallasbulk_434_17_alg».proof.Proof.Gen.ReferenceIdeal.Frame
import proofs.«112087_g2000709704230610_pallasbulk_434_17_alg».proof.Proof.Gen.Pre_finite_inputs
import proofs.«112087_g2000709704230610_pallasbulk_434_17_alg».proof.Proof.KRun
import proofs.«112087_g2000709704230610_pallasbulk_434_17_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The idealization rewrote no operation: nothing to preserve. -/
theorem preserves : Cert.preserves_Kernel_KernelIdeal := trivial

/-- Both programs end with their result array at `G` of their arguments; the arguments agree, so the results are equal,
    element by element. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun r h c => ⟨(h c).1.trans ?_, (h c).2⟩)
    (Cert.ReferenceIdeal.RefValue.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
